-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S16384 : Shape := ⟨1, ![16384]⟩
abbrev S768x512 : Shape := ⟨2, ![768, 512]⟩
abbrev S512 : Shape := ⟨1, ![512]⟩
abbrev S1000x512 : Shape := ⟨2, ![1000, 512]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S1000x512 : S_.BroadcastsInDim S1000x512 (![] : Fin 0 → Fin S1000x512.rank)
  reducesTo_S1000x512_S_d0_1 : S1000x512.ReducesTo [0, 1] S_

variable [Facts]

def fn_part1 {F : FTy → Type} [FloatOps F] (main_arg5 : FVec F S1000x512 .f32) (main_arg6 : FVec F S1000x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1000x512 .f32 := Host.absf main_arg5
  let main_cst_6 : FVec F S_ .f32 := constant S_ .f32 0x7F800000#32
  let main_v20 : FVec F S1000x512 .f32 := broadcastInDim S1000x512 ![] bcast_S_S1000x512 main_cst_6
  let main_v21 : IVec S1000x512 1 := cmpf .olt main_v19 main_v20
  let main_c_7 : IVec S_ 1 := constantI S_ 1 1#1
  let main_v22 : IVec S_ 1 := (fun x v => Host.reduce IntOp.andi x v reducesTo_S1000x512_S_d0_1 h_S_) main_v21 main_c_7
  let main_v23 : IVec S_ 1 := andi main_v18 main_v22
  let main_v24 : FVec F S1000x512 .f32 := Host.absf main_arg6
  let main_cst_8 : FVec F S_ .f32 := constant S_ .f32 0x7F800000#32
  let main_v25 : FVec F S1000x512 .f32 := broadcastInDim S1000x512 ![] bcast_S_S1000x512 main_cst_8
  let main_v26 : IVec S1000x512 1 := cmpf .olt main_v24 main_v25
  let main_c_9 : IVec S_ 1 := constantI S_ 1 1#1
  let main_v27 : IVec S_ 1 := (fun x v => Host.reduce IntOp.andi x v reducesTo_S1000x512_S_d0_1 h_S_) main_v26 main_c_9
  let main_v28 : IVec S_ 1 := andi main_v23 main_v27
  main_v28

def fn {F : FTy → Type} [FloatOps F] (main_arg0 : FVec F S16384x768 .f32) (main_arg1 : FVec F S16384x768 .f32) (main_arg2 : IVec S16384 32) (main_arg3 : FVec F S768x512 .f32) (main_arg4 : FVec F S512 .f32) (main_arg5 : FVec F S1000x512 .f32) (main_arg6 : FVec F S1000x512 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S768x512 .f32 := Host.absf main_arg3
  let main_cst_2 : FVec F S_ .f32 := constant S_ .f32 0x7F800000#32
  let main_v10 : FVec F S768x512 .f32 := broadcastInDim S768x512 ![] bcast_S_S768x512 main_cst_2
  let main_v11 : IVec S768x512 1 := cmpf .olt main_v9 main_v10
  let main_c_3 : IVec S_ 1 := constantI S_ 1 1#1
  let main_v12 : IVec S_ 1 := (fun x v => Host.reduce IntOp.andi x v reducesTo_S768x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_v13 main_v16
-- ==== Kernel.lean ====
abbrev S16384x768 : Shape := ⟨2, ![16384, 768]⟩
abbrev S16384 : Shape := ⟨1, ![16384]⟩
abbrev S768x512 : Shape := ⟨2, ![768, 512]⟩
abbrev S512 : Shape := ⟨1, ![512]⟩
abbrev S1000x512 : Shape := ⟨2, ![1000, 512]⟩
abbrev S16384x512 : Shape := ⟨2, ![16384, 512]⟩
abbrev S1024x768 : Shape := ⟨2, ![1024, 768]⟩
abbrev S1024 : Shape := ⟨1, ![1024]⟩
abbrev S1024x512 : Shape := ⟨2, ![1024, 512]⟩
abbrev S1000x1024 : Shape := ⟨2, ![1000, 1024]⟩
abbrev S1024x1 : Shape := ⟨2, ![1024, 1]⟩
abbrev S1024x1000 : Shape := ⟨2, ![1024, 1000]⟩
abbrev S1024x1024 : Shape := ⟨2, ![1024, 1024]⟩
abbrev S1x512 : Shape := ⟨2, ![1, 512]⟩

abbrev nBuf : Space → Nat
  | .hbm => 11
  | .vmem => 20
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384, .i32⟩
  | .hbm, ⟨3, _⟩ => ⟨S768x512, .f32⟩
  | .hbm, ⟨4, _⟩ => ⟨S512, .f32⟩
  | .hbm, ⟨5, _⟩ => ⟨S1000x512, .f32⟩
  | .hbm, ⟨6, _⟩ => ⟨S1000x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1024, .i32⟩
  | .local _ .vmem, ⟨5, _⟩ => ⟨S1024, .i32⟩
  | .local _ .vmem, ⟨6, _⟩ => ⟨S768x512, .f32⟩
  | .local _ .vmem, ⟨7, _⟩ => ⟨S512, .f32⟩
  | .local _ .vmem, ⟨8, _⟩ => ⟨S1000x512, .f32⟩
  | .local _ .vmem, ⟨9, _⟩ => ⟨S1000x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S768x512, .bf16⟩
  | .local _ .vmem, ⟨19, _⟩ => ⟨S1000x1024, .bf16⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 1 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  ![v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S768x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1000x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1000x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  inb_S768x512_S768x512_0_0 : ∀ a, (![0, 0] : Fin 2 → Nat) a + S768x512.size a ≤ S768x512.size a
  h_S768x512 : 0 < S768x512.numel
  bitsLt_bf16_f32 : FTy.bits .bf16 < FTy.bits .f32
  shapeCasts_S768x512_S768x512 : S768x512.ShapeCasts S768x512
  packedbf16_S768x512_S768x512_0_0 : (Rect.unit (s := S768x512) ![0, 0] S768x512.size inb_S768x512_S768x512_0_0).PackedRows (EltTy.packing .bf16)
  inb_S1000x512_S1000x512_0_0 : ∀ a, (![0, 0] : Fin 2 → Nat) a + S1000x512.size a ≤ S1000x512.size a
  h_S1000x512 : 0 < S1000x512.numel
  inb_S1000x1024_S1000x512_0_0 : ∀ a, (![0, 0] : Fin 2 → Nat) a + S1000x512.size a ≤ S1000x1024.size a
  shapeCasts_S1000x512_S1000x512 : S1000x512.ShapeCasts S1000x512
  packedbf16_S1000x1024_S1000x512_0_0 : (Rect.unit (s := S1000x1024) ![0, 0] S1000x512.size inb_S1000x1024_S1000x512_0_0).PackedRows (EltTy.packing .bf16)
  inb_S1000x1024_S1000x512_0_512 : ∀ a, (![0, 512] : Fin 2 → Nat) a + S1000x512.size a ≤ S1000x1024.size a
  packedbf16_S1000x1024_S1000x512_0_512 : (Rect.unit (s := S1000x1024) ![0, 512] S1000x512.size inb_S1000x1024_S1000x512_0_512).PackedRows (EltTy.packing .bf16)
  inb_S1024_S1024_0 : ∀ a, (![0] : Fin 1 → Nat) a + S1024.size a ≤ S1024.size a
  h_S1024 : 0 < S1024.numel
  shapeCasts_S1024_S1024x1 : S1024.ShapeCasts S1024x1
  iota_S1024x1000_d1_w32 : S1024x1000.Iotas .tc 32 [1]
  broadcasts_S1024x1_S1024x1000 : S1024x1.Broadcasts S1024x1000
  natLt_1_32 : 1 < 32
  inb_S1000x1024_S1000x1024_0_0 : ∀ a, (![0, 0] : Fin 2 → Nat) a + S1000x1024.size a ≤ S1000x1024.size a
  h_S1000x1024 : 0 < S1000x1024.numel
  slices_S1024x1024_o0_0_S1024x512 : S1024x1024.Slices ![0, 0] S1024x512
  slices_S1024x1024_o0_512_S1024x512 : S1024x1024.Slices ![0, 512] S1024x512
  inb_S512_S512_0 : ∀ a, (![0] : Fin 1 → Nat) a + S512.size a ≤ S512.size a
  h_S512 : 0 < S512.numel
  shapeCasts_S512_S1x512 : S512.ShapeCasts S1x512
  inb_S1024x768_S1024x768_0_0 : ∀ a, (![0, 0] : Fin 2 → Nat) a + S1024x768.size a ≤ S1024x768.size a
  h_S1024x768 : 0 < S1024x768.numel
  broadcasts_S1x512_S1024x512 : S1x512.Broadcasts S1024x512
  reduces_S1024x512_S1024 : S1024x512.Reduces [1] S1024
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  dot_S1024x1000_S1000x1024_S1024x1024_1_0_0_1_n_n_wf : DotDims.WF S1024x1000 S1000x1024 S1024x1024 [1] [0] [0] [1] [] []
  dot_S1024x768_S768x512_S1024x512_1_0_0_1_n_n_wf : DotDims.WF S1024x768 S768x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S16384x768.size a
  hwx0_1 : ∀ i : grid0.Coords, EltTy.bits .f32 = 32 ∨ (Rect.block (s := S16384x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S16384.size a
  hwx0_2 : ∀ i : grid0.Coords, EltTy.bits .i32 = 32 ∨ (Rect.block (s := S16384) S1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x512.size a ≤ S768x512.size a
  hwx0_3 : ∀ i : grid0.Coords, EltTy.bits .f32 = 32 ∨ (Rect.block (s := S768x512) S768x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S1000x512.size a
  hwx0_5 : ∀ i : grid0.Coords, EltTy.bits .f32 = 32 ∨ (Rect.block (s := S1000x512) S1000x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1000x512.size a ≤ S1000x512.size a
  hwx0_6 : ∀ i : grid0.Coords, EltTy.bits .f32 = 32 ∨ (Rect.block (s := S1000x512) S1000x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S16384x512.size a
  hwx0_7 : ∀ i : grid0.Coords, EltTy.bits .f32 = 32 ∨ (Rect.block (s := S16384x512) S1024x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S16384x512.size a
  hwx0_8 : ∀ i : grid0.Coords, EltTy.bits .f32 = 32 ∨ (Rect.block (s := S16384x512) S1024x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S16384x512.size a
  hwx0_9 : ∀ i : grid0.Coords, EltTy.bits .f32 = 32 ∨ (Rect.block (s := S16384x512) S1024x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S16384x512.size a
  hwx0_10 : ∀ i : grid0.Coords, EltTy.bits .f32 = 32 ∨ (Rect.block (s := S16384x512) S1024x512.size (cc0_transform_10 i) (hinb0_10 i)).WholeWords (EltTy.packing .f32)

variable [Facts₀]

def dot_S1024x1000_S1000x1024_S1024x1024_1_0_0_1_n_n : DotDims S1024x1000 S1000x1024 S1024x1024 where
  lhsContracting := [1]
  rhsContracting := [0]
  lhsNonContracting := [0]
  rhsNonContracting := [1]
  lhsBatch := []
  rhsBatch := []
  wf := dot_S1024x1000_S1000x1024_S1024x1024_1_0_0_1_n_n_wf
def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1000x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1000x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1024x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_3) S1024x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x768 : Shape := ⟨2, ![16384, 768]⟩
abbrev S16384 : Shape := ⟨1, ![16384]⟩
abbrev S768x512 : Shape := ⟨2, ![768, 512]⟩
abbrev S512 : Shape := ⟨1, ![512]⟩
abbrev S1000x512 : Shape := ⟨2, ![1000, 512]⟩
abbrev S16384x1 : Shape := ⟨2, ![16384, 1]⟩
abbrev S1x512 : Shape := ⟨2, ![1, 512]⟩
abbrev S16384x512 : Shape := ⟨2, ![16384, 512]⟩
abbrev S256x768 : Shape := ⟨2, ![256, 768]⟩
abbrev S256x1 : Shape := ⟨2, ![256, 1]⟩
abbrev S256x512 : Shape := ⟨2, ![256, 512]⟩
abbrev S256x1000 : Shape := ⟨2, ![256, 1000]⟩
abbrev S256 : Shape := ⟨1, ![256]⟩

abbrev nBuf : Space → Nat
  | .hbm => 13
  | .vmem => 18
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384, .i32⟩
  | .hbm, ⟨3, _⟩ => ⟨S768x512, .f32⟩
  | .hbm, ⟨4, _⟩ => ⟨S512, .f32⟩
  | .hbm, ⟨5, _⟩ => ⟨S1000x512, .f32⟩
  | .hbm, ⟨6, _⟩ => ⟨S1000x512, .f32⟩
  | .hbm, ⟨7, _⟩ => ⟨S16384x1, .i32⟩
  | .hbm, ⟨8, _⟩ => ⟨S1x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x1, .i32⟩
  | .local _ .vmem, ⟨5, _⟩ => ⟨S256x1, .i32⟩
  | .local _ .vmem, ⟨6, _⟩ => ⟨S768x512, .f32⟩
  | .local _ .vmem, ⟨7, _⟩ => ⟨S1x512, .f32⟩
  | .local _ .vmem, ⟨8, _⟩ => ⟨S1000x512, .f32⟩
  | .local _ .vmem, ⟨9, _⟩ => ⟨S1000x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1000x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1000x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S16384_S16384x1 : S16384.ShapeCasts S16384x1
  shapeCasts_S512_S1x512 : S512.ShapeCasts S1x512
  inb_S256x768_S256x768_0_0 : ∀ a, (![0, 0] : Fin 2 → Nat) a + S256x768.size a ≤ S256x768.size a
  h_S256x768 : 0 < S256x768.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S768x512_S768x512_0_0 : ∀ a, (![0, 0] : Fin 2 → Nat) a + S768x512.size a ≤ S768x512.size a
  h_S768x512 : 0 < S768x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1000x512_S1000x512_0_0 : ∀ a, (![0, 0] : Fin 2 → Nat) a + S1000x512.size a ≤ S1000x512.size a
  h_S1000x512 : 0 < S1000x512.numel
  iota_S256x1000_d1_w32 : S256x1000.Iotas .tc 32 [1]
  broadcasts_S256x1_S256x1000 : S256x1.Broadcasts S256x1000
  natLt_1_32 : 1 < 32
  broadcasts_S1x512_S256x512 : S1x512.Broadcasts S256x512
  reduces_S256x512_S256 : S256x512.Reduces [1] S256
  shapeCasts_S256_S256x1 : S256.ShapeCasts S256x1
  broadcasts_S256x1_S256x512 : S256x1.Broadcasts S256x512
  inb_S256x512_S256x512_0_0 : ∀ a, (![0, 0] : Fin 2 → Nat) a + S256x512.size a ≤ S256x512.size a
  h_S256x512 : 0 < S256x512.numel
  dot_S256x1000_S1000x512_S256x512_1_0_0_1_n_n_wf : DotDims.WF S256x1000 S1000x512 S256x512 [1] [0] [0] [1] [] []
  dot_S256x768_S768x512_S256x512_1_0_0_1_n_n_wf : DotDims.WF S256x768 S768x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S16384x768.size a
  hwx0_0 : ∀ i : grid0.Coords, EltTy.bits .f32 = 32 ∨ (Rect.block (s := S16384x768) S256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S16384x768.size a
  hwx0_1 : ∀ i : grid0.Coords, EltTy.bits .f32 = 32 ∨ (Rect.block (s := S16384x768) S256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .i32 = 32 ∨ (Rect.block (s := S16384x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x512.size a ≤ S768x512.size a
  hwx0_3 : ∀ i : grid0.Coords, EltTy.bits .f32 = 32 ∨ (Rect.block (s := S768x512) S768x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S1000x512.size a
  hwx0_5 : ∀ i : grid0.Coords, EltTy.bits .f32 = 32 ∨ (Rect.block (s := S1000x512) S1000x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1000x512.size a ≤ S1000x512.size a
  hwx0_6 : ∀ i : grid0.Coords, EltTy.bits .f32 = 32 ∨ (Rect.block (s := S1000x512) S1000x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S16384x512.size a
  hwx0_7 : ∀ i : grid0.Coords, EltTy.bits .f32 = 32 ∨ (Rect.block (s := S16384x512) S256x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S16384x512.size a
  hwx0_8 : ∀ i : grid0.Coords, EltTy.bits .f32 = 32 ∨ (Rect.block (s := S16384x512) S256x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S16384x512.size a
  hwx0_9 : ∀ i : grid0.Coords, EltTy.bits .f32 = 32 ∨ (Rect.block (s := S16384x512) S256x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S16384x512.size a
  hwx0_10 : ∀ i : grid0.Coords, EltTy.bits .f32 = 32 ∨ (Rect.block (s := S16384x512) S256x512.size (cc0_transform_10 i) (hinb0_10 i)).WholeWords (EltTy.packing .f32)

variable [Facts₀]

def dot_S256x1000_S1000x512_S256x512_1_0_0_1_n_n : DotDims S256x1000 S1000x512 S256x512 where
  lhsContracting := [1]
  rhsContracting := [0]
  lhsNonContracting := [0]
  rhsNonContracting := [1]
  lhsBatch := []
  rhsBatch := []
  wf := dot_S256x1000_S1000x512_S256x512_1_0_0_1_n_n_wf
def dot_S256x768_S768x512_S256x512_1_0_0_1_n_n : DotDims S256x768 S768x512 S256x512 where
  lhsContracting := [1]
  rhsContracting := [0]
  lhsNonContracting := [0]
  rhsNonContracting := [1]
  lhsBatch := []
  rhsBatch := []
  wf := dot_S256x768_S768x512_S256x512_1_0_0_1_n_n_wf

abbrev win0_0 : Pipeline.Window sig grid0 :=
  Pipeline.Window.ofSpec (Memref.whole main_arg0) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1000x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1000x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S256x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S256x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_2) S256x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_3) S256x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== Proof.KernelCases.lean ====
/-
  What one grid point of the kernel leaves behind, as values.

  The kernel keeps two buffers of its own between grid points: a copy of the weight, and the two tables side by side,
  hyperplane normals in columns 0..511 and relation embeddings in columns 512..1023. At the first point of each run of
  eight it fills both from its whole-array operands; at the other points it leaves them alone. Either way the four
  result blocks of a point are the same expressions of the point's sentence blocks, relation numbers, bias, and of
  whatever those two buffers hold — and since the operands they are filled from never change, they hold the same
  contents after every point. This file proves exactly that, for any float instance: the value of each case's found
  pieces, and by induction over the points the contents of the two buffers.
-/
import proofs.«176442_g2000002567377267_pallasbulk_162_25_alg».proof.Proof.Gen.KernelIdeal.Value
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- A read of a whole buffer after a list of stores into it is the contents those stores leave. -/
theorem readBack_whole {sig : RefSig} {κ : Kind} {sp : Space} {S : Shape} {e : EltTy} (v : View sig κ sp S e)
    {off : Fin S.rank → Nat} (h : off = fun _ => 0) (inb : ∀ a, off a + S.size a ≤ S.size a)
    (L : List (View.Piece (Elt F) S e)) :
    v.readCov L (Rect.unit off S.size inb).toLoadRect = View.canon L := by
  rw [View.readCov_eq_canon']
  exact View.ld_unit_zero h inb (View.canon L)

/-- The two tables side by side: normals stored at columns 0..511, then embeddings at columns 512..1023. -/
def tables (x5 x6 : Vec F S1000x512 .f32) : Vec F S1000x1024 .bf16 :=
  View.canon [⟨Rect.unit (s := S1000x1024) ![0, 512] S1000x512.size Facts₀.inb_S1000x1024_S1000x512_0_512, k0_pay4 x6⟩,
    ⟨Rect.unit (s := S1000x1024) ![0, 0] S1000x512.size Facts₀.inb_S1000x1024_S1000x512_0_0, k0_pay3 x5⟩]

/-! ## The point that fills the two buffers -/

/-- It leaves the weight's copy in the first buffer. -/
theorem weight_filled (c : Dev nD) (i : grid0.Coords) (arg2 : Memref sig .tc .vmem S1024x768 .f32) (harg2 : arg2.IsWhole) (arg3 : Memref sig .tc .vmem S1024x768 .f32) (harg3 : arg3.IsWhole) (arg4 : Memref sig .tc .vmem S1024 .i32) (harg4 : arg4.IsWhole) (arg5 : Memref sig .tc .vmem S768x512 .f32) (harg5 : arg5.IsWhole) (arg6 : Memref sig .tc .vmem S512 .f32) (harg6 : arg6.IsWhole) (arg7 : Memref sig .tc .vmem S1000x512 .f32) (harg7 : arg7.IsWhole) (arg8 : Memref sig .tc .vmem S1000x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S768x512 .bf16) (harg13 : arg13.IsWhole) (arg14 : Memref sig .tc .vmem S1000x1024 .bf16) (harg14 : arg14.IsWhole) (hc0 : cond0_0 i) (x0 : Vec F S1024x768 .f32) (x1 : Vec F S1024x768 .f32) (x2 : Vec F S1024 .i32) (x3 : Vec F S768x512 .f32) (x4 : Vec F S512 .f32) (x5 : Vec F S1000x512 .f32) (x6 : Vec F S1000x512 .f32) : sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x768) hz2, View.ld_unit_zero (S := S1024) hz1, View.ld_unit_zero (S := S512) hz1, View.ld_unit_zero (S := S768x512) hz2, View.ld_unit_zero (S := S1000x512) hz2]

/-- It leaves the two tables side by side in the second buffer. -/
theorem tables_filled (c : Dev nD) (i : grid0.Coords) (arg2 : Memref sig .tc .vmem S1024x768 .f32) (harg2 : arg2.IsWhole) (arg3 : Memref sig .tc .vmem S1024x768 .f32) (harg3 : arg3.IsWhole) (arg4 : Memref sig .tc .vmem S1024 .i32) (harg4 : arg4.IsWhole) (arg5 : Memref sig .tc .vmem S768x512 .f32) (harg5 : arg5.IsWhole) (arg6 : Memref sig .tc .vmem S512 .f32) (harg6 : arg6.IsWhole) (arg7 : Memref sig .tc .vmem S1000x512 .f32) (harg7 : arg7.IsWhole) (arg8 : Memref sig .tc .vmem S1000x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S768x512 .bf16) (harg13 : arg13.IsWhole) (arg14 : Memref sig .tc .vmem S1000x1024 .bf16) (harg14 : arg14.IsWhole) (hc0 : cond0_0 i) (x0 : Vec F S1024x768 .f32) (x1 : Vec F S1024x768 .f32) (x2 : Vec F S1024 .i32) (x3 : Vec F S768x512 .f32) (x4 : Vec F S512 .f32) (x5 : Vec F S1000x512 .f32) (x6 : Vec F S1000x512 .f32) : sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = tables x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S1024x768) hz2, View.ld_unit_zero (S := S1024) hz1, View.ld_unit_zero (S := S512) hz1, View.ld_unit_zero (S := S768x512) hz2, View.ld_unit_zero (S := S1000x512) hz2]
  rfl

/-- Result block 7 at a filling point: the common expression, over the buffers as just filled. -/
theorem filled_7 (c : Dev nD) (i : grid0.Coords) (arg2 : Memref sig .tc .vmem S1024x768 .f32) (harg2 : arg2.IsWhole) (arg3 : Memref sig .tc .vmem S1024x768 .f32) (harg3 : arg3.IsWhole) (arg4 : Memref sig .tc .vmem S1024 .i32) (harg4 : arg4.IsWhole) (arg5 : Memref sig .tc .vmem S768x512 .f32) (harg5 : arg5.IsWhole) (arg6 : Memref sig .tc .vmem S512 .f32) (harg6 : arg6.IsWhole) (arg7 : Memref sig .tc .vmem S1000x512 .f32) (harg7 : arg7.IsWhole) (arg8 : Memref sig .tc .vmem S1000x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S768x512 .bf16) (harg13 : arg13.IsWhole) (arg14 : Memref sig .tc .vmem S1000x1024 .bf16) (harg14 : arg14.IsWhole) (hc0 : cond0_0 i) (x0 : Vec F S1024x768 .f32) (x1 : Vec F S1024x768 .f32) (x2 : Vec F S1024 .i32) (x3 : Vec F S768x512 .f32) (x4 : Vec F S512 .f32) (x5 : Vec F S1000x512 .f32) (x6 : Vec F S1000x512 .f32) : out0_A_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay10 x2 (tables x5 x6) x4 x0 (k0_pay2 x3) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x768) hz2, View.ld_unit_zero (S := S1024) hz1, View.ld_unit_zero (S := S512) hz1, View.ld_unit_zero (S := S768x512) hz2, View.ld_unit_zero (S := S1000x512) hz2]
  simp only [readBack_whole (S := S1000x1024) _ hz2, View.readCov_unit_zero (S := S768x512) _ hz2]
  rfl

/-- Result block 8 at a filling point: the common expression, over the buffers as just filled. -/
theorem filled_8 (c : Dev nD) (i : grid0.Coords) (arg2 : Memref sig .tc .vmem S1024x768 .f32) (harg2 : arg2.IsWhole) (arg3 : Memref sig .tc .vmem S1024x768 .f32) (harg3 : arg3.IsWhole) (arg4 : Memref sig .tc .vmem S1024 .i32) (harg4 : arg4.IsWhole) (arg5 : Memref sig .tc .vmem S768x512 .f32) (harg5 : arg5.IsWhole) (arg6 : Memref sig .tc .vmem S512 .f32) (harg6 : arg6.IsWhole) (arg7 : Memref sig .tc .vmem S1000x512 .f32) (harg7 : arg7.IsWhole) (arg8 : Memref sig .tc .vmem S1000x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S768x512 .bf16) (harg13 : arg13.IsWhole) (arg14 : Memref sig .tc .vmem S1000x1024 .bf16) (harg14 : arg14.IsWhole) (hc0 : cond0_0 i) (x0 : Vec F S1024x768 .f32) (x1 : Vec F S1024x768 .f32) (x2 : Vec F S1024 .i32) (x3 : Vec F S768x512 .f32) (x4 : Vec F S512 .f32) (x5 : Vec F S1000x512 .f32) (x6 : Vec F S1000x512 .f32) : out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay1 (k0_pay6 x2 (tables x5 x6)) (k0_pay9 x4 x1 (k0_pay2 x3)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x768) hz2, View.ld_unit_zero (S := S1024) hz1, View.ld_unit_zero (S := S512) hz1, View.ld_unit_zero (S := S768x512) hz2, View.ld_unit_zero (S := S1000x512) hz2]
  simp only [readBack_whole (S := S1000x1024) _ hz2, View.readCov_unit_zero (S := S768x512) _ hz2]
  rfl

/-- Result block 9 at a filling point: the common expression, over the buffers as just filled. -/
theorem filled_9 (c : Dev nD) (i : grid0.Coords) (arg2 : Memref sig .tc .vmem S1024x768 .f32) (harg2 : arg2.IsWhole) (arg3 : Memref sig .tc .vmem S1024x768 .f32) (harg3 : arg3.IsWhole) (arg4 : Memref sig .tc .vmem S1024 .i32) (harg4 : arg4.IsWhole) (arg5 : Memref sig .tc .vmem S768x512 .f32) (harg5 : arg5.IsWhole) (arg6 : Memref sig .tc .vmem S512 .f32) (harg6 : arg6.IsWhole) (arg7 : Memref sig .tc .vmem S1000x512 .f32) (harg7 : arg7.IsWhole) (arg8 : Memref sig .tc .vmem S1000x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S768x512 .bf16) (harg13 : arg13.IsWhole) (arg14 : Memref sig .tc .vmem S1000x1024 .bf16) (harg14 : arg14.IsWhole) (hc0 : cond0_0 i) (x0 : Vec F S1024x768 .f32) (x1 : Vec F S1024x768 .f32) (x2 : Vec F S1024 .i32) (x3 : Vec F S768x512 .f32) (x4 : Vec F S512 .f32) (x5 : Vec F S1000x512 .f32) (x6 : Vec F S1000x512 .f32) : out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay7 x2 (tables x5 x6) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x768) hz2, View.ld_unit_zero (S := S1024) hz1, View.ld_unit_zero (S := S512) hz1, View.ld_unit_zero (S := S768x512) hz2, View.ld_unit_zero (S := S1000x512) hz2]
  simp only [readBack_whole (S := S1000x1024) _ hz2, View.readCov_unit_zero (S := S768x512) _ hz2]
  rfl

/-- Result block 10 at a filling point: the common expression, over the buffers as just filled. -/
theorem filled_10 (c : Dev nD) (i : grid0.Coords) (arg2 : Memref sig .tc .vmem S1024x768 .f32) (harg2 : arg2.IsWhole) (arg3 : Memref sig .tc .vmem S1024x768 .f32) (harg3 : arg3.IsWhole) (arg4 : Memref sig .tc .vmem S1024 .i32) (harg4 : arg4.IsWhole) (arg5 : Memref sig .tc .vmem S768x512 .f32) (harg5 : arg5.IsWhole) (arg6 : Memref sig .tc .vmem S512 .f32) (harg6 : arg6.IsWhole) (arg7 : Memref sig .tc .vmem S1000x512 .f32) (harg7 : arg7.IsWhole) (arg8 : Memref sig .tc .vmem S1000x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S768x512 .bf16) (harg13 : arg13.IsWhole) (arg14 : Memref sig .tc .vmem S1000x1024 .bf16) (harg14 : arg14.IsWhole) (hc0 : cond0_0 i) (x0 : Vec F S1024x768 .f32) (x1 : Vec F S1024x768 .f32) (x2 : Vec F S1024 .i32) (x3 : Vec F S768x512 .f32) (x4 : Vec F S512 .f32) (x5 : Vec F S1000x512 .f32) (x6 : Vec F S1000x512 .f32) : out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay6 x2 (tables x5 x6) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x768) hz2, View.ld_unit_zero (S := S1024) hz1, View.ld_unit_zero (S := S512) hz1, View.ld_unit_zero (S := S768x512) hz2, View.ld_unit_zero (S := S1000x512) hz2]
  simp only [readBack_whole (S := S1000x1024) _ hz2, View.readCov_unit_zero (S := S768x512) _ hz2]
  rfl

/-! ## The other points -/

/-- Result block 7 at a point that keeps the buffers: the common expression, over what they hold. -/
theorem kept_7 (c : Dev nD) (i : grid0.Coords) (arg2 : Memref sig .tc .vmem S1024x768 .f32) (harg2 : arg2.IsWhole) (arg3 : Memref sig .tc .vmem S1024x768 .f32) (harg3 : arg3.IsWhole) (arg4 : Memref sig .tc .vmem S1024 .i32) (harg4 : arg4.IsWhole) (arg5 : Memref sig .tc .vmem S768x512 .f32) (harg5 : arg5.IsWhole) (arg6 : Memref sig .tc .vmem S512 .f32) (harg6 : arg6.IsWhole) (arg7 : Memref sig .tc .vmem S1000x512 .f32) (harg7 : arg7.IsWhole) (arg8 : Memref sig .tc .vmem S1000x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S768x512 .bf16) (harg13 : arg13.IsWhole) (arg14 : Memref sig .tc .vmem S1000x1024 .bf16) (harg14 : arg14.IsWhole) (hc0 : ¬cond0_0 i) (x0 : Vec F S1024x768 .f32) (x1 : Vec F S1024x768 .f32) (x2 : Vec F S1024 .i32) (x3 : Vec F S768x512 .f32) (x4 : Vec F S512 .f32) (x5 : Vec F S1000x512 .f32) (x6 : Vec F S1000x512 .f32) (xs0 : Vec F S768x512 .bf16) (xs1 : Vec F S1000x1024 .bf16) : out0_B_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1 = k0_pay10 x2 xs1 x4 x0 xs0 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1)]
  unfold kernelRun0_B
  dsimp only
  sl_unfold_words
  rw [View.canon_unit_zero hz2]
  simp only [View.readAt_eq_ld, harg2.read_unread, harg3.read_unread, harg4.read_unread, harg6.read_unread, harg13.read_unread, harg14.read_unread, View.ld_unit_zero (S := S1024x768) hz2, View.ld_unit_zero (S := S1024) hz1, View.ld_unit_zero (S := S512) hz1, View.ld_unit_zero (S := S768x512) hz2, View.ld_unit_zero (S := S1000x1024) hz2]

/-- Result block 8 at a point that keeps the buffers: the common expression, over what they hold. -/
theorem kept_8 (c : Dev nD) (i : grid0.Coords) (arg2 : Memref sig .tc .vmem S1024x768 .f32) (harg2 : arg2.IsWhole) (arg3 : Memref sig .tc .vmem S1024x768 .f32) (harg3 : arg3.IsWhole) (arg4 : Memref sig .tc .vmem S1024 .i32) (harg4 : arg4.IsWhole) (arg5 : Memref sig .tc .vmem S768x512 .f32) (harg5 : arg5.IsWhole) (arg6 : Memref sig .tc .vmem S512 .f32) (harg6 : arg6.IsWhole) (arg7 : Memref sig .tc .vmem S1000x512 .f32) (harg7 : arg7.IsWhole) (arg8 : Memref sig .tc .vmem S1000x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S768x512 .bf16) (harg13 : arg13.IsWhole) (arg14 : Memref sig .tc .vmem S1000x1024 .bf16) (harg14 : arg14.IsWhole) (hc0 : ¬cond0_0 i) (x0 : Vec F S1024x768 .f32) (x1 : Vec F S1024x768 .f32) (x2 : Vec F S1024 .i32) (x3 : Vec F S768x512 .f32) (x4 : Vec F S512 .f32) (x5 : Vec F S1000x512 .f32) (x6 : Vec F S1000x512 .f32) (xs0 : Vec F S768x512 .bf16) (xs1 : Vec F S1000x1024 .bf16) : out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1 = k0_pay1 (k0_pay6 x2 xs1) (k0_pay9 x4 x1 xs0) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1)]
  unfold kernelRun0_B
  dsimp only
  sl_unfold_words
  rw [View.canon_unit_zero hz2]
  simp only [View.readAt_eq_ld, harg2.read_unread, harg3.read_unread, harg4.read_unread, harg6.read_unread, harg13.read_unread, harg14.read_unread, View.ld_unit_zero (S := S1024x768) hz2, View.ld_unit_zero (S := S1024) hz1, View.ld_unit_zero (S := S512) hz1, View.ld_unit_zero (S := S768x512) hz2, View.ld_unit_zero (S := S1000x1024) hz2]

/-- Result block 9 at a point that keeps the buffers: the common expression, over what they hold. -/
theorem kept_9 (c : Dev nD) (i : grid0.Coords) (arg2 : Memref sig .tc .vmem S1024x768 .f32) (harg2 : arg2.IsWhole) (arg3 : Memref sig .tc .vmem S1024x768 .f32) (harg3 : arg3.IsWhole) (arg4 : Memref sig .tc .vmem S1024 .i32) (harg4 : arg4.IsWhole) (arg5 : Memref sig .tc .vmem S768x512 .f32) (harg5 : arg5.IsWhole) (arg6 : Memref sig .tc .vmem S512 .f32) (harg6 : arg6.IsWhole) (arg7 : Memref sig .tc .vmem S1000x512 .f32) (harg7 : arg7.IsWhole) (arg8 : Memref sig .tc .vmem S1000x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S768x512 .bf16) (harg13 : arg13.IsWhole) (arg14 : Memref sig .tc .vmem S1000x1024 .bf16) (harg14 : arg14.IsWhole) (hc0 : ¬cond0_0 i) (x0 : Vec F S1024x768 .f32) (x1 : Vec F S1024x768 .f32) (x2 : Vec F S1024 .i32) (x3 : Vec F S768x512 .f32) (x4 : Vec F S512 .f32) (x5 : Vec F S1000x512 .f32) (x6 : Vec F S1000x512 .f32) (xs0 : Vec F S768x512 .bf16) (xs1 : Vec F S1000x1024 .bf16) : out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1 = k0_pay7 x2 xs1 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1)]
  unfold kernelRun0_B
  dsimp only
  sl_unfold_words
  rw [View.canon_unit_zero hz2]
  simp only [View.readAt_eq_ld, harg2.read_unread, harg3.read_unread, harg4.read_unread, harg6.read_unread, harg13.read_unread, harg14.read_unread, View.ld_unit_zero (S := S1024x768) hz2, View.ld_unit_zero (S := S1024) hz1, View.ld_unit_zero (S := S512) hz1, View.ld_unit_zero (S := S768x512) hz2, View.ld_unit_zero (S := S1000x1024) hz2]

/-- Result block 10 at a point that keeps the buffers: the common expression, over what they hold. -/
theorem kept_10 (c : Dev nD) (i : grid0.Coords) (arg2 : Memref sig .tc .vmem S1024x768 .f32) (harg2 : arg2.IsWhole) (arg3 : Memref sig .tc .vmem S1024x768 .f32) (harg3 : arg3.IsWhole) (arg4 : Memref sig .tc .vmem S1024 .i32) (harg4 : arg4.IsWhole) (arg5 : Memref sig .tc .vmem S768x512 .f32) (harg5 : arg5.IsWhole) (arg6 : Memref sig .tc .vmem S512 .f32) (harg6 : arg6.IsWhole) (arg7 : Memref sig .tc .vmem S1000x512 .f32) (harg7 : arg7.IsWhole) (arg8 : Memref sig .tc .vmem S1000x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S768x512 .bf16) (harg13 : arg13.IsWhole) (arg14 : Memref sig .tc .vmem S1000x1024 .bf16) (harg14 : arg14.IsWhole) (hc0 : ¬cond0_0 i) (x0 : Vec F S1024x768 .f32) (x1 : Vec F S1024x768 .f32) (x2 : Vec F S1024 .i32) (x3 : Vec F S768x512 .f32) (x4 : Vec F S512 .f32) (x5 : Vec F S1000x512 .f32) (x6 : Vec F S1000x512 .f32) (xs0 : Vec F S768x512 .bf16) (xs1 : Vec F S1000x1024 .bf16) : out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1 = k0_pay6 x2 xs1 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1)]
  unfold kernelRun0_B
  dsimp only
  sl_unfold_words
  rw [View.canon_unit_zero hz2]
  simp only [View.readAt_eq_ld, harg2.read_unread, harg3.read_unread, harg4.read_unread, harg6.read_unread, harg13.read_unread, harg14.read_unread, View.ld_unit_zero (S := S1024x768) hz2, View.ld_unit_zero (S := S1024) hz1, View.ld_unit_zero (S := S512) hz1, View.ld_unit_zero (S := S768x512) hz2, View.ld_unit_zero (S := S1000x1024) hz2]

end Cert.KernelIdeal.Cases

end
-- ==== Proof.KernelPoints.lean ====
/-
  The kernel's two carried buffers hold the same contents after every grid point, and so every point computes its four
  result blocks by one and the same expression.

  The weight, the bias and the two tables reach the body as blocks whose index never moves off the origin and whose
  extent is the whole array: such a block IS the array. The point that fills the buffers fills them from those blocks;
  a point that does not fill them finds what the point before left. By induction over the points (never by listing
  them) the first buffer always holds the weight's copy and the second the two tables side by side; substituting that
  into either case's value gives the common expression.
-/
import proofs.«176442_g2000002567377267_pallasbulk_162_25_alg».proof.Proof.KernelCases

noncomputable section

namespace Cert.KernelIdeal.Carried

open Cert.KernelIdeal Cert.KernelIdeal.Gen Cert.KernelIdeal.Cases Idealize.ShloMosaic Idealize.ShloMosaic.TcCoe Idealize.SL.Sem

variable {F : FTy → Type} [FloatOps F]
variable (m : (ℓ : Loc nD τ sig) → Buf (Elt F) ℓ)

/-! ## Blocks that are whole arrays -/

/-- The weight's block index is the origin at every point (decided over the grid). -/
theorem origin_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- The bias's block index is the origin at every point. -/
theorem origin_4 : ∀ t : Fin cfg0.N, win0_4.index t (0 : Fin 1) = 0 :=
  (by decide +kernel : ∀ t : Fin grid0.N, win0_4.index t (0 : Fin 1) = 0)
/-- The normals table's block index is the origin at every point. -/
theorem origin_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- The embeddings table's block index is the origin at every point. -/
theorem origin_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- The weight's block at any point is the weight. -/
theorem weight_blk (c : Dev nD) (t : Fin cfg0.N) : (iblk m c 3 t : Vec F S768x512 .f32) = V m c main_arg3 := by
  obtain ⟨e0, e1⟩ := origin_3 t
  funext j
  unfold iblk
  rw [View.read_apply]
  show V m c main_arg3 _ = V m c main_arg3 j
  refine congrArg _ ?_
  funext a
  apply Fin.ext
  match a with
  | ⟨0, _⟩ => show win0_3.index t (0 : Fin 2) * 768 + 1 * (j 0).val = (j 0).val; rw [e0]; omega
  | ⟨1, _⟩ => show win0_3.index t (1 : Fin 2) * 512 + 1 * (j 1).val = (j 1).val; rw [e1]; omega

/-- The bias's block at any point is the bias. -/
theorem bias_blk (c : Dev nD) (t : Fin cfg0.N) : (iblk m c 4 t : Vec F S512 .f32) = V m c main_arg4 := by
  obtain e0 := origin_4 t
  funext j
  unfold iblk
  rw [View.read_apply]
  show V m c main_arg4 _ = V m c main_arg4 j
  refine congrArg _ ?_
  funext a
  apply Fin.ext
  match a with
  | ⟨0, _⟩ => show win0_4.index t (0 : Fin 1) * 512 + 1 * (j 0).val = (j 0).val; rw [e0]; omega

/-- The normals table's block at any point is the table. -/
theorem normals_blk (c : Dev nD) (t : Fin cfg0.N) : (iblk m c 5 t : Vec F S1000x512 .f32) = V m c main_arg5 := by
  obtain ⟨e0, e1⟩ := origin_5 t
  funext j
  unfold iblk
  rw [View.read_apply]
  show V m c main_arg5 _ = V m c main_arg5 j
  refine congrArg _ ?_
  funext a
  apply Fin.ext
  match a with
  | ⟨0, _⟩ => show win0_5.index t (0 : Fin 2) * 1000 + 1 * (j 0).val = (j 0).val; rw [e0]; omega
  | ⟨1, _⟩ => show win0_5.index t (1 : Fin 2) * 512 + 1 * (j 1).val = (j 1).val; rw [e1]; omega

/-- The embeddings table's block at any point is the table. -/
theorem embeds_blk (c : Dev nD) (t : Fin cfg0.N) : (iblk m c 6 t : Vec F S1000x512 .f32) = V m c main_arg6 := by
  obtain ⟨e0, e1⟩ := origin_6 t
  funext j
  unfold iblk
  rw [View.read_apply]
  show V m c main_arg6 _ = V m c main_arg6 j
  refine congrArg _ ?_
  funext a
  apply Fin.ext
  match a with
  | ⟨0, _⟩ => show win0_6.index t (0 : Fin 2) * 1000 + 1 * (j 0).val = (j 0).val; rw [e0]; omega
  | ⟨1, _⟩ => show win0_6.index t (1 : Fin 2) * 512 + 1 * (j 1).val = (j 1).val; rw [e1]; omega

/-! ## The two buffers after every point -/

/-- After every point the first buffer holds the weight's copy and the second the two tables side by side: a filling
    point writes exactly that, any other point keeps what the point before left. -/
theorem buffers (c : Dev nD) : ∀ (n : ℕ) (h : n < cfg0.N),
    (outsAt0 m c n h).2.2.2.2.1 = k0_pay2 (V m c main_arg3)
      ∧ (outsAt0 m c n h).2.2.2.2.2 = tables (V m c main_arg5) (V m c main_arg6)
  | 0, h => by
    rw [outsAt0_A m c ⟨0, h⟩ rfl]
    dsimp only
    rw [weight_filled, tables_filled, weight_blk m c ⟨0, h⟩, normals_blk m c ⟨0, h⟩, embeds_blk m c ⟨0, h⟩]
    exact ⟨rfl, rfl⟩
  | n + 1, h => by
    by_cases h0 : (⟨n + 1, h⟩ : Fin cfg0.N).val % 8 = 0
    · rw [outsAt0_A m c ⟨n + 1, h⟩ h0]
      dsimp only
      rw [weight_filled, tables_filled, weight_blk m c ⟨n + 1, h⟩, normals_blk m c ⟨n + 1, h⟩, embeds_blk m c ⟨n + 1, h⟩]
      exact ⟨rfl, rfl⟩
    · rw [outsAt0_B m c ⟨n + 1, h⟩ h0]
      dsimp only
      unfold sout0_B_0 sout0_B_1
      exact buffers c n (Nat.lt_of_succ_lt h)

/-! ## What every point leaves in its four result blocks -/

/-- The first sentence's result block. -/
theorem left_7 (c : Dev nD) (t : Fin cfg0.N) : (outsAt0 m c t.val t.isLt).1 = k0_pay10 (iblk m c 2 t) (tables (V m c main_arg5) (V m c main_arg6)) (iblk m c 4 t) (iblk m c 0 t) (k0_pay2 (V m c main_arg3)) := by
  by_cases h0 : t.val % 8 = 0
  · rw [outsAt0_A m c t h0]
    dsimp only
    rw [filled_7, weight_blk m c t, normals_blk m c t, embeds_blk m c t]
  · rw [outsAt0_B m c t h0]
    dsimp only
    rw [kept_7, (buffers m c _ _).1, (buffers m c _ _).2]

/-- The second sentence's result block. -/
theorem left_8 (c : Dev nD) (t : Fin cfg0.N) : (outsAt0 m c t.val t.isLt).2.1 = k0_pay1 (k0_pay6 (iblk m c 2 t) (tables (V m c main_arg5) (V m c main_arg6))) (k0_pay9 (iblk m c 4 t) (iblk m c 1 t) (k0_pay2 (V m c main_arg3))) := by
  by_cases h0 : t.val % 8 = 0
  · rw [outsAt0_A m c t h0]
    dsimp only
    rw [filled_8, weight_blk m c t, normals_blk m c t, embeds_blk m c t]
  · rw [outsAt0_B m c t h0]
    dsimp only
    rw [kept_8, (buffers m c _ _).1, (buffers m c _ _).2]

/-- The selected relation embeddings. -/
theorem left_9 (c : Dev nD) (t : Fin cfg0.N) : (outsAt0 m c t.val t.isLt).2.2.1 = k0_pay7 (iblk m c 2 t) (tables (V m c main_arg5) (V m c main_arg6)) := by
  by_cases h0 : t.val % 8 = 0
  · rw [outsAt0_A m c t h0]
    dsimp only
    rw [filled_9, normals_blk m c t, embeds_blk m c t]
  · rw [outsAt0_B m c t h0]
    dsimp only
    rw [kept_9, (buffers m c _ _).2]

/-- The selected hyperplane normals. -/
theorem left_10 (c : Dev nD) (t : Fin cfg0.N) : (outsAt0 m c t.val t.isLt).2.2.2.1 = k0_pay6 (iblk m c 2 t) (tables (V m c main_arg5) (V m c main_arg6)) := by
  by_cases h0 : t.val % 8 = 0
  · rw [outsAt0_A m c t h0]
    dsimp only
    rw [filled_10, normals_blk m c t, embeds_blk m c t]
  · rw [outsAt0_B m c t h0]
    dsimp only
    rw [kept_10, (buffers m c _ _).2]

end Cert.KernelIdeal.Carried

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«176442_g2000002567377267_pallasbulk_162_25_alg».proof.Proof.LibMatmulRows
import proofs.«176442_g2000002567377267_pallasbulk_162_25_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibColumnPieces.lean ====
/-
  GENERAL LEMMAS on matrices assembled from column blocks. Nothing here mentions a program.

  * concat_cols_slice: a matrix [R, Nout] is the concatenation, along the columns, of a list of pieces; piece n is
    a slice (any offsets) of width w of a matrix y [R', Nin], and the pieces before it have total width pre. Then the
    concatenation at (r, pre + c), c < w, is y at (off 0 + r, off 1 + c).
  * slice2_apply: a slice of a matrix read at an index is the matrix at the index shifted by the offsets.
-/
import Idealize.ShloMosaic.Lib.Pipeline.Value
import Idealize.ShloMosaic.Lib.ValueIdx

noncomputable section

namespace Cert.LibColumnPieces

open Idealize.ShloMosaic Idealize.ShloMosaic.ValueIdx

/-- The concatenation along the columns, read inside piece n, when that piece is a slice of y. -/
theorem concat_cols_slice {α : Type} {R R' Nin Nout w : ℕ}
    (xs : List ((s : Shape) × (s.Idx → α)))
    (h : Shape.Concatenates (xs.map (·.1)) ⟨2, ![R, Nout]⟩ 1)
    (y : (⟨2, ![R', Nin]⟩ : Shape).Idx → α) (n : ℕ) (hn : n < xs.length) (off : Fin 2 → ℕ)
    (hs : (⟨2, ![R', Nin]⟩ : Shape).Slices off ⟨2, ![R, w]⟩)
    (hx : xs[n] = ⟨⟨2, ![R, w]⟩, extractStridedSlice ⟨2, ![R, w]⟩ off y hs⟩)
    (pre : ℕ)
    (hpre : (((xs.take n).map (·.1)).map fun s =>
      if h : s.rank = (⟨2, ![R, Nout]⟩ : Shape).rank then s.size ((1 : Fin (⟨2, ![R, Nout]⟩ : Shape).rank).cast h.symm) else 0).sum = pre)
    (r : Fin R) (k : Fin Nout) (c : ℕ) (hc : c < w) (hk : k.val = pre + c)
    (i : (⟨2, ![R', Nin]⟩ : Shape).Idx) (hi0 : (i 0).val = off 0 + r.val) (hi1 : (i 1).val = off 1 + c) :
    concatenate ⟨2, ![R, Nout]⟩ 1 xs h (ix2 r k) = y i := by
  refine (concatenate_apply_piece (1 : Fin (⟨2, ![R, Nout]⟩ : Shape).rank) xs h (ix2 r k) n hn ⟨2, ![R, w]⟩ _ hx rfl pre hpre
    (ix2 r ⟨c, hc⟩) ?_ ?_).trans ?_
  · intro b hb
    match b with
    | ⟨0, _⟩ => rfl
    | ⟨1, _⟩ => exact absurd rfl hb
  · show pre + c = k.val
    omega
  · refine extractStridedSlice_apply off y hs (ix2 r ⟨c, hc⟩) i ?_
    intro a
    match a with
    | ⟨0, _⟩ => exact hi0
    | ⟨1, _⟩ => exact hi1

/-- A slice of a matrix, read at j: the matrix at any index k whose coordinates are j's shifted by the offsets. -/
theorem slice2_apply {α : Type} {R N R' N' : ℕ} (off : Fin 2 → ℕ) (x : (⟨2, ![R, N]⟩ : Shape).Idx → α)
    (h : (⟨2, ![R, N]⟩ : Shape).Slices off ⟨2, ![R', N']⟩) (j : (⟨2, ![R', N']⟩ : Shape).Idx)
    (k : (⟨2, ![R, N]⟩ : Shape).Idx) (h0 : (k 0).val = off 0 + (j 0).val) (h1 : (k 1).val = off 1 + (j 1).val) :
    extractStridedSlice ⟨2, ![R', N']⟩ off x h j = x k := by
  refine extractStridedSlice_apply off x h j k ?_
  intro a
  match a with
  | ⟨0, _⟩ => exact h0
  | ⟨1, _⟩ => exact h1

end Cert.LibColumnPieces

end
-- ==== Proof.LibHyperplane.lean ====
/-
  GENERAL LEMMAS: a row selected from a table by an indicator (one-hot) contraction, and the projection of a hidden vector
  off a selected normal — the translation-on-hyperplanes layer on extended reals. Nothing here mentions a program; every
  extent (batch, block height, sentence width, hidden width, table height) is arbitrary.

  For a batch row with relation number a, sentence row x, weight W, bias b and two tables T (hyperplane normals) and E
  (relation embeddings):
    * the INDICATOR ROW of a has entry k equal to 1 when a is the number k and 0 otherwise (the comparison word,
      widened, read as a float);
    * the SELECTED ROW of a table is the indicator row contracted against the table: entry q is the sum over k of
      indicator(a, k) * T(k, q);
    * the layer's hidden vector is the affine image h = x · W + b;
    * the result is h with its component along the selected normal n removed: entry q is h(q) - (sum over j of
      n(j) * h(j)) * n(q).
  Every entry of a result row is a function of that batch row's data alone and of the whole weight, bias and tables. So
  a computation tiled over blocks of rows — of any block height — computes, block by block, the rows of one function of
  the whole arrays. This file states that function and reads the operations that programs use for it at an entry.
  No law of extended-real arithmetic beyond re-indexing a finite sum is used: nothing here needs finite entries.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«176442_g2000002567377267_pallasbulk_162_25_alg».proof.Proof.LibMatmulRows
import proofs.«176442_g2000002567377267_pallasbulk_162_25_alg».proof.Proof.LibDenseLayers
import proofs.«176442_g2000002567377267_pallasbulk_162_25_alg».proof.Proof.LibLayout
import proofs.«176442_g2000002567377267_pallasbulk_162_25_alg».proof.Proof.LibColumnPieces

noncomputable section

namespace Cert.Hyperplane

open Idealize.ShloMosaic Idealize.ShloMosaic.ValueIdx Cert.LibDenseLayers
open scoped BigOperators

/-! ## The indicator row of a relation number -/

/-- Entry k of the indicator row of the relation number a: the one-bit word of the comparison a = k, widened to 32 bits
    and read as a float. -/
def hot (a : BitVec 32) (k : ℕ) : EReal :=
  FloatOps.sitofp (F := Ideal) .f32 ((IntOp.cmpi .eq a (BitVec.ofNat 32 k)).setWidth 32)

/-- The lane counter of a matrix, at (p, k), is the word of k. -/
theorem laneCounter_apply {A R : ℕ} (hi : (⟨2, ![A, R]⟩ : Shape).Iotas .tc 32 [1]) (p : Fin A) (k : Fin R) :
    iota .tc ⟨2, ![A, R]⟩ 32 [1] hi (ix2 p k) = BitVec.ofNat 32 k.val := by
  show BitVec.ofNat 32 (0 * R + k.val) = _
  rw [Nat.zero_mul, Nat.zero_add]

/-- The indicator matrix of a column of relation numbers, as programs spell it — the column laid along the lanes,
    compared with the lane counter, widened and converted — read at (p, k): the indicator row of row p's number at k. -/
theorem indicator_apply {A R : ℕ} (col : IVec ⟨2, ![A, 1]⟩ 32) (hb : (⟨2, ![A, 1]⟩ : Shape).Broadcasts ⟨2, ![A, R]⟩)
    (hi : (⟨2, ![A, R]⟩ : Shape).Iotas .tc 32 [1]) (hw : 1 < 32) (p : Fin A) (k : Fin R) :
    (sitofp .f32 (extui 32 (cmpi .eq (broadcastTo ⟨2, ![A, R]⟩ col hb) (iota .tc ⟨2, ![A, R]⟩ 32 [1] hi)) hw)
        : FVec Ideal ⟨2, ![A, R]⟩ .f32) (ix2 p k)
      = hot (col (ix2 p (0 : Fin 1))) k.val := by
  show FloatOps.sitofp (F := Ideal) .f32
      ((IntOp.cmpi .eq (broadcastTo ⟨2, ![A, R]⟩ col hb (ix2 p k)) (iota .tc ⟨2, ![A, R]⟩ 32 [1] hi (ix2 p k))).setWidth 32) = _
  rw [Cert.LibLayout.broadcastTo_a1_ab_apply col hb p k, laneCounter_apply hi p k]
  rfl

/-! ## The selected table row, the projection, and the layer -/

/-- Entry q of the row that the relation number a selects from a table: the indicator row of a against column q. -/
def pick {R N : ℕ} (T : (⟨2, ![R, N]⟩ : Shape).Idx → EReal) (a : BitVec 32) (q : Fin N) : EReal :=
  ∑ k : Fin R, hot a k.val * T (ix2 k q)

/-- Entry q of the vector h with its component along n removed. -/
def proj {M : ℕ} (n h : Fin M → EReal) (q : Fin M) : EReal :=
  h q - (∑ j : Fin M, n j * h j) * n q

/-- Entry (p, q) of the layer's result for one sentence: the hidden vector of batch row p, projected along the normal
    that row p's relation number selects. -/
def layerAt {B S M R : ℕ} (x : (⟨2, ![B, S]⟩ : Shape).Idx → EReal) (rel : (⟨1, ![B]⟩ : Shape).Idx → BitVec 32)
    (W : (⟨2, ![S, M]⟩ : Shape).Idx → EReal) (b : (⟨1, ![M]⟩ : Shape).Idx → EReal)
    (T : (⟨2, ![R, M]⟩ : Shape).Idx → EReal) (p : Fin B) (q : Fin M) : EReal :=
  proj (fun j => pick T (rel (ix1 p)) j) (fun j => affineAt x W b p j) q

/-- The layer's result for one sentence, as a matrix of B rows. -/
def layer {B S M R : ℕ} (x : (⟨2, ![B, S]⟩ : Shape).Idx → EReal) (rel : (⟨1, ![B]⟩ : Shape).Idx → BitVec 32)
    (W : (⟨2, ![S, M]⟩ : Shape).Idx → EReal) (b : (⟨1, ![M]⟩ : Shape).Idx → EReal)
    (T : (⟨2, ![R, M]⟩ : Shape).Idx → EReal) : (⟨2, ![B, M]⟩ : Shape).Idx → EReal :=
  fun i => layerAt x rel W b T (i 0) (i 1)

/-- The rows that the batch's relation numbers select from a table, as a matrix of B rows. -/
def picked {B R N : ℕ} (rel : (⟨1, ![B]⟩ : Shape).Idx → BitVec 32) (T : (⟨2, ![R, N]⟩ : Shape).Idx → EReal) :
    (⟨2, ![B, N]⟩ : Shape).Idx → EReal :=
  fun i => pick T (rel (ix1 (i 0))) (i 1)

/-- ROW-LOCALITY: row p of the layer on one batch is row p' of the layer on another when the two rows carry the same
    sentence and the same relation number. -/
theorem layerAt_congr {B B' S M R : ℕ} (x : (⟨2, ![B, S]⟩ : Shape).Idx → EReal) (x' : (⟨2, ![B', S]⟩ : Shape).Idx → EReal)
    (rel : (⟨1, ![B]⟩ : Shape).Idx → BitVec 32) (rel' : (⟨1, ![B']⟩ : Shape).Idx → BitVec 32)
    (W : (⟨2, ![S, M]⟩ : Shape).Idx → EReal) (b : (⟨1, ![M]⟩ : Shape).Idx → EReal) (T : (⟨2, ![R, M]⟩ : Shape).Idx → EReal)
    (p : Fin B) (p' : Fin B') (hx : ∀ k : Fin S, x (ix2 p k) = x' (ix2 p' k)) (hr : rel (ix1 p) = rel' (ix1 p'))
    (q : Fin M) : layerAt x rel W b T p q = layerAt x' rel' W b T p' q := by
  unfold layerAt
  rw [hr]
  have e : (fun j => affineAt x W b p j) = fun j => affineAt x' W b p' j :=
    funext fun j => affineAt_congr x x' W b p p' hx j
  rw [e]

/-- The projection depends on its two vectors only through their entries. -/
theorem proj_congr {M : ℕ} (n n' h h' : Fin M → EReal) (hn : ∀ j, n j = n' j) (hh : ∀ j, h j = h' j) (q : Fin M) :
    proj n h q = proj n' h' q := by
  rw [show n = n' from funext hn, show h = h' from funext hh]

/-- A BLOCK OF ROWS AGAINST THE WHOLE BATCH. Row p of a block — its sentence row x(p, ·) and relation number a(p) —
    that is row (i 0) of the whole batch, with the same weight, bias and table, gives at column q the layer's entry at
    the batch index i whose column is q. -/
theorem layer_of_block {B A S M R : ℕ} (X : (⟨2, ![B, S]⟩ : Shape).Idx → EReal) (x : (⟨2, ![A, S]⟩ : Shape).Idx → EReal)
    (Rel : (⟨1, ![B]⟩ : Shape).Idx → BitVec 32) (a : Fin A → BitVec 32)
    (W W' : (⟨2, ![S, M]⟩ : Shape).Idx → EReal) (b b' : (⟨1, ![M]⟩ : Shape).Idx → EReal)
    (T T' : (⟨2, ![R, M]⟩ : Shape).Idx → EReal) (p : Fin A) (q : Fin M) (i : (⟨2, ![B, M]⟩ : Shape).Idx)
    (hi1 : (i 1).val = q.val) (hx : ∀ k : Fin S, x (ix2 p k) = X (ix2 (i 0) k)) (ha : a p = Rel (ix1 (i 0)))
    (hW : W' = W) (hb : b' = b) (hT : T' = T) :
    proj (fun j => pick T' (a p) j) (fun j => affineAt x W' b' p j) q = layer X Rel W b T i := by
  subst hW hb hT
  have hq : i 1 = q := Fin.ext hi1
  show _ = proj (fun j => pick T' (Rel (ix1 (i 0))) j) (fun j => affineAt X W' b' (i 0) j) (i 1)
  rw [hq, ← ha]
  exact proj_congr _ _ _ _ (fun _ => rfl) (fun j => affineAt_congr x X W' b' p (i 0) hx j) q

/-- The same for a selected table row: row p of a block whose relation number is that of batch row (i 0), at column q. -/
theorem picked_of_block {B A R N : ℕ} (Rel : (⟨1, ![B]⟩ : Shape).Idx → BitVec 32) (a : Fin A → BitVec 32)
    (T T' : (⟨2, ![R, N]⟩ : Shape).Idx → EReal) (p : Fin A) (q : Fin N) (i : (⟨2, ![B, N]⟩ : Shape).Idx)
    (hi1 : (i 1).val = q.val) (ha : a p = Rel (ix1 (i 0))) (hT : T' = T) :
    pick T' (a p) q = picked Rel T i := by
  subst hT
  have hq : i 1 = q := Fin.ext hi1
  show _ = pick T' (Rel (ix1 (i 0))) (i 1)
  rw [hq, ← ha]

/-! ## The operations programs use, read at an entry -/

/-- The indicator matrix against a table through the matrix unit, into a zero accumulator, read at (p, q): the row
    that row p's number selects, at q. The left operand may carry any float format. -/
theorem pick_of_matmul {A R N : ℕ} (d : DotDims ⟨2, ![A, R]⟩ ⟨2, ![R, N]⟩ ⟨2, ![A, N]⟩)
    (hrank : d.contr.rank = 1) (hsize : d.contr.size ⟨0, by omega⟩ = R)
    (hl0 : ∀ (i : (⟨2, ![A, N]⟩ : Shape).Idx) (s : d.contr.Idx), (d.lhsIdx i s 0).val = (i 0).val)
    (hl1 : ∀ (i : (⟨2, ![A, N]⟩ : Shape).Idx) (s : d.contr.Idx), (d.lhsIdx i s 1).val = (s ⟨0, by omega⟩).val)
    (hr0 : ∀ (i : (⟨2, ![A, N]⟩ : Shape).Idx) (s : d.contr.Idx), (d.rhsIdx i s 0).val = (s ⟨0, by omega⟩).val)
    (hr1 : ∀ (i : (⟨2, ![A, N]⟩ : Shape).Idx) (s : d.contr.Idx), (d.rhsIdx i s 1).val = (i 1).val)
    {φ₁ φ₂ : FTy} (ind : FVec Ideal ⟨2, ![A, R]⟩ φ₁) (T : FVec Ideal ⟨2, ![R, N]⟩ φ₂) (a : Fin A → BitVec 32)
    (hind : ∀ (p : Fin A) (k : Fin R), ind (ix2 p k) = hot (a p) k.val) (p : Fin A) (q : Fin N) :
    matmul d none ind T (constant (F := Ideal) ⟨2, ![A, N]⟩ .f32 0x00000000#32) (ix2 p q) = pick T (a p) q := by
  rw [Cert.LibMatmulRows.matmul_rows d hrank hsize hl0 hl1 hr0 hr1 ind T p q]
  unfold pick
  exact Finset.sum_congr rfl fun k _ => by rw [hind p k]

/-- The projection as programs spell it — the product of normal and hidden matrices summed along the lanes, the sums
    kept as a column and laid back along the lanes, times the normal, subtracted from the hidden matrix — read at
    (p, q): row p of the hidden matrix projected along row p of the normal matrix, at q. -/
theorem proj_apply {A M : ℕ} (n h : FVec Ideal ⟨2, ![A, M]⟩ .f32)
    (hr : Shape.Reduces ⟨2, ![A, M]⟩ [1] ⟨1, ![A]⟩) (hφ : FKind.Formats .f32)
    (hacc : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, M]⟩)
    (p : Fin A) (q : Fin M) :
    subf h (mulf (broadcastTo ⟨2, ![A, M]⟩
        (shapeCast ⟨2, ![A, 1]⟩ (multiReduction .add [1] ⟨1, ![A]⟩ (mulf n h) 0x00000000#32 hr hφ hacc) hc) hb) n) (ix2 p q)
      = proj (fun j => n (ix2 p j)) (fun j => h (ix2 p j)) q := by
  show h (ix2 p q) - broadcastTo ⟨2, ![A, M]⟩
        (shapeCast ⟨2, ![A, 1]⟩ (multiReduction .add [1] ⟨1, ![A]⟩ (mulf n h) 0x00000000#32 hr hφ hacc) hc) hb (ix2 p q)
        * n (ix2 p q) = _
  rw [Cert.LibLayout.broadcastTo_a1_ab_apply _ hb p q, Cert.LibLayout.shapeCast_a_a1_apply _ hc p 0,
    Cert.LibLayout.laneSum_apply (mulf n h) hr hφ hacc p]
  rfl

end Cert.Hyperplane

end
-- ==== Proof.KernelArrays.lean ====
/-
  The kernel's four result arrays, as functions of its argument arrays.

  The kernel tiles the batch into 16 blocks of 1024 rows. At every grid point its two carried buffers hold the weight
  and the two tables side by side (the induction over the points). It contracts the indicator matrix of the block's
  relation numbers with the side-by-side tables ONCE and cuts the product in two: columns 0..511 are the selected
  normals, columns 512..1023 the selected embeddings — entry for entry the two separate contractions, since column q
  of the left half of the side-by-side table is column q of the normals and column 512 + q is column q of the
  embeddings. The rest is the layer's formula for each row; row p of block t is row 1024·t + p of the batch, and the
  blocks tile the batch. Changing a float's format changes nothing on extended reals.
-/
import proofs.«176442_g2000002567377267_pallasbulk_162_25_alg».proof.Proof.KernelPoints
import Idealize.ShloMosaic.Lib.Pipeline.Value
import Idealize.ShloMosaic.Lib.ValueLayout
import proofs.«176442_g2000002567377267_pallasbulk_162_25_alg».proof.Proof.LibHyperplane

noncomputable section

namespace Cert.KernelIdeal.Arrays

open Cert.KernelIdeal Cert.KernelIdeal.Gen Cert.KernelIdeal.Cases Cert.KernelIdeal.Carried
open Idealize.ShloMosaic Idealize.ShloMosaic.TcCoe Idealize.SL.Sem Idealize.ShloMosaic.ValueIdx
open Cert.Hyperplane Cert.LibDenseLayers
open Idealize.ShloMosaic.Pipeline (Dat)

variable (m : (ℓ : Loc nD τ sig) → Buf (Elt Ideal) ℓ) (ρ : Dev nD → PrngReg)

/-! ## The body's values read at an entry -/

/-- The contraction of the indicator matrix with the side-by-side tables. -/
abbrev dT := dot_S1024x1000_S1000x1024_S1024x1024_1_0_0_1_n_n
theorem dT_l0 (i : S1024x1024.Idx) (s : dT.contr.Idx) : (dT.lhsIdx i s 0).val = (i 0).val := by
  first | rfl | (simp [DotDims.lhsIdx, dT, dot_S1024x1000_S1000x1024_S1024x1024_1_0_0_1_n_n]; rfl) | simp [DotDims.lhsIdx, dT, dot_S1024x1000_S1000x1024_S1024x1024_1_0_0_1_n_n]
theorem dT_l1 (i : S1024x1024.Idx) (s : dT.contr.Idx) : (dT.lhsIdx i s 1).val = (s ⟨0, Nat.one_pos⟩).val :=
  dT.lhsIdx_val_of_single rfl i s
theorem dT_r0 (i : S1024x1024.Idx) (s : dT.contr.Idx) : (dT.rhsIdx i s 0).val = (s ⟨0, Nat.one_pos⟩).val :=
  dT.rhsIdx_val_of_single rfl i s
theorem dT_r1 (i : S1024x1024.Idx) (s : dT.contr.Idx) : (dT.rhsIdx i s 1).val = (i 1).val := by
  first | rfl | (simp [DotDims.rhsIdx, dT, dot_S1024x1000_S1000x1024_S1024x1024_1_0_0_1_n_n]; rfl) | simp [DotDims.rhsIdx, dT, dot_S1024x1000_S1000x1024_S1024x1024_1_0_0_1_n_n]

/-- The contraction of a sentence block with the weight's copy. -/
abbrev dW := dot_S1024x768_S768x512_S1024x512_1_0_0_1_n_n
theorem dW_l0 (i : S1024x512.Idx) (s : dW.contr.Idx) : (dW.lhsIdx i s 0).val = (i 0).val := by
  first | rfl | (simp [DotDims.lhsIdx, dW, dot_S1024x768_S768x512_S1024x512_1_0_0_1_n_n]; rfl) | simp [DotDims.lhsIdx, dW, dot_S1024x768_S768x512_S1024x512_1_0_0_1_n_n]
theorem dW_l1 (i : S1024x512.Idx) (s : dW.contr.Idx) : (dW.lhsIdx i s 1).val = (s ⟨0, Nat.one_pos⟩).val :=
  dW.lhsIdx_val_of_single rfl i s
theorem dW_r0 (i : S1024x512.Idx) (s : dW.contr.Idx) : (dW.rhsIdx i s 0).val = (s ⟨0, Nat.one_pos⟩).val :=
  dW.rhsIdx_val_of_single rfl i s
theorem dW_r1 (i : S1024x512.Idx) (s : dW.contr.Idx) : (dW.rhsIdx i s 1).val = (i 1).val := by
  first | rfl | (simp [DotDims.rhsIdx, dW, dot_S1024x768_S768x512_S1024x512_1_0_0_1_n_n]; rfl) | simp [DotDims.rhsIdx, dW, dot_S1024x768_S768x512_S1024x512_1_0_0_1_n_n]

/-- The weight's copy is the weight. -/
theorem weight_copy (v : FVec Ideal S768x512 .f32) : (k0_pay2 (F := Ideal) v : S768x512.Idx → EReal) = v := by
  unfold k0_pay2
  try dsimp only
  rw [shapeCast_self]
  rfl

/-- Column q' < 512 of the side-by-side tables is column q' of the normals. -/
theorem tables_left (x5 x6 : FVec Ideal S1000x512 .f32) (k : Fin 1000) (q : Fin 512) (q' : Fin 1024) (hq : q'.val = q.val) :
    tables (F := Ideal) x5 x6 (ix2 k q') = x5 (ix2 k q) := by
  unfold tables
  refine (View.canon_cons_of_not_mem _ _ ?_).trans ?_
  · show ix2 k q' ∉ (Rect.unit (s := S1000x1024) ![0, 512] S1000x512.size Facts₀.inb_S1000x1024_S1000x512_0_512).set
    rw [Rect.mem_set_unit]
    intro h
    have h1 : (512 : ℕ) ≤ q'.val := (h 1).1
    have := q.isLt
    omega
  · have e : ix2 k q' = (Rect.unit (s := S1000x1024) ![0, 0] S1000x512.size Facts₀.inb_S1000x1024_S1000x512_0_0).emb (ix2 k q) := by
      funext a
      apply Fin.ext
      match a with
      | ⟨0, _⟩ => show k.val = 0 + 1 * k.val; omega
      | ⟨1, _⟩ => show q'.val = 0 + 1 * q.val; omega
    refine (congrArg _ e).trans ((View.canon_cons_emb _ _ _ _).trans ?_)
    unfold k0_pay3
    rw [shapeCast_self]
    rfl

/-- Column 512 + q of the side-by-side tables is column q of the embeddings. -/
theorem tables_right (x5 x6 : FVec Ideal S1000x512 .f32) (k : Fin 1000) (q : Fin 512) (q' : Fin 1024) (hq : q'.val = 512 + q.val) :
    tables (F := Ideal) x5 x6 (ix2 k q') = x6 (ix2 k q) := by
  unfold tables
  have e : ix2 k q' = (Rect.unit (s := S1000x1024) ![0, 512] S1000x512.size Facts₀.inb_S1000x1024_S1000x512_0_512).emb (ix2 k q) := by
    funext a
    apply Fin.ext
    match a with
    | ⟨0, _⟩ => show k.val = 0 + 1 * k.val; omega
    | ⟨1, _⟩ => show q'.val = 512 + 1 * q.val; omega
  refine (congrArg _ e).trans ((View.canon_cons_emb _ _ _ _).trans ?_)
  unfold k0_pay4
  rw [shapeCast_self]
  rfl

/-- The indicator matrix against whatever the second buffer holds, at (p, q): the row that row p's number selects. -/
theorem gathered_val (v3 : Vec Ideal S1024 .i32) (v11 : FVec Ideal S1000x1024 .bf16) (p : Fin 1024) (q : Fin 1024) :
    k0_pay5 (F := Ideal) v3 v11 (ix2 p q) = pick v11 (v3 (ix1 p)) q := by
  unfold k0_pay5
  try dsimp only
  refine pick_of_matmul dT rfl rfl dT_l0 dT_l1 dT_r0 dT_r1 _ v11 (fun p' => v3 (ix1 p')) (fun p' k => ?_) p q
  exact (indicator_apply (shapeCast S1024x1 v3 Facts₀.shapeCasts_S1024_S1024x1) Facts₀.broadcasts_S1024x1_S1024x1000
    Facts₀.iota_S1024x1000_d1_w32 Facts₀.natLt_1_32 p' k).trans
    (congrArg (fun a => hot a k.val) (Cert.LibLayout.shapeCast_a_a1_apply v3 _ p' (0 : Fin 1)))

/-- The left half of the product: the selected normals at (p, q). -/
theorem normals_val (v3 : Vec Ideal S1024 .i32) (x5 x6 : FVec Ideal S1000x512 .f32) (p : Fin 1024) (q : Fin 512) :
    k0_pay6 (F := Ideal) v3 (tables x5 x6) (ix2 p q) = pick x5 (v3 (ix1 p)) q := by
  unfold k0_pay6
  try dsimp only
  refine (Cert.LibColumnPieces.slice2_apply _ _ _ (ix2 p q) (ix2 p (⟨q.val, by have := q.isLt; omega⟩ : Fin 1024)) ?_ ?_).trans ?_
  · show p.val = 0 + p.val; omega
  · show q.val = 0 + q.val; omega
  refine (gathered_val v3 _ p _).trans ?_
  unfold pick
  exact Finset.sum_congr rfl fun k _ => by rw [tables_left x5 x6 k q _ rfl]

/-- The right half of the product: the selected embeddings at (p, q). -/
theorem embeds_val (v3 : Vec Ideal S1024 .i32) (x5 x6 : FVec Ideal S1000x512 .f32) (p : Fin 1024) (q : Fin 512) :
    k0_pay7 (F := Ideal) v3 (tables x5 x6) (ix2 p q) = pick x6 (v3 (ix1 p)) q := by
  unfold k0_pay7
  try dsimp only
  refine (Cert.LibColumnPieces.slice2_apply _ _ _ (ix2 p q) (ix2 p (⟨512 + q.val, by have := q.isLt; omega⟩ : Fin 1024)) ?_ ?_).trans ?_
  · show p.val = 0 + p.val; omega
  · show 512 + q.val = 512 + q.val; rfl
  refine (gathered_val v3 _ p _).trans ?_
  unfold pick
  exact Finset.sum_congr rfl fun k _ => by rw [tables_right x5 x6 k q _ rfl]

/-- The first sentence's result block at (p, q): the hidden row x · W + b projected along the selected normal. -/
theorem sent1_val (v3 : Vec Ideal S1024 .i32) (x5 x6 : FVec Ideal S1000x512 .f32) (v15 : FVec Ideal S512 .f32)
    (v17 : FVec Ideal S1024x768 .f32) (v19 : FVec Ideal S768x512 .bf16) (p : Fin 1024) (q : Fin 512) :
    k0_pay10 (F := Ideal) v3 (tables x5 x6) v15 v17 v19 (ix2 p q)
      = proj (fun j => pick x5 (v3 (ix1 p)) j) (fun j => affineAt v17 v19 v15 p j) q := by
  unfold k0_pay10
  try dsimp only
  refine (proj_apply (k0_pay6 v3 (tables x5 x6)) _ _ (.inl rfl) rfl _ _ p q).trans ?_
  refine proj_congr _ _ _ _ (fun j => normals_val v3 x5 x6 p j) (fun j => ?_) q
  unfold k0_pay8
  exact congrFun (affine_of_matmul dW rfl rfl dW_l0 dW_l1 dW_r0 dW_r1 _ _ (truncf .bf16 v17 _) v19 v15) (ix2 p j)

/-- The second sentence's result block at (p, q). -/
theorem sent2_val (v3 : Vec Ideal S1024 .i32) (x5 x6 : FVec Ideal S1000x512 .f32) (v15 : FVec Ideal S512 .f32)
    (v23 : FVec Ideal S1024x768 .f32) (v25 : FVec Ideal S768x512 .bf16) (p : Fin 1024) (q : Fin 512) :
    k0_pay1 (F := Ideal) (k0_pay6 v3 (tables x5 x6)) (k0_pay9 v15 v23 v25) (ix2 p q)
      = proj (fun j => pick x5 (v3 (ix1 p)) j) (fun j => affineAt v23 v25 v15 p j) q := by
  unfold k0_pay1
  try dsimp only
  refine (proj_apply (k0_pay6 v3 (tables x5 x6)) (k0_pay9 v15 v23 v25) _ (.inl rfl) rfl _ _ p q).trans ?_
  refine proj_congr _ _ _ _ (fun j => normals_val v3 x5 x6 p j) (fun j => ?_) q
  unfold k0_pay9 k0_pay8
  try dsimp only
  exact congrFun (affine_of_matmul dW rfl rfl dW_l0 dW_l1 dW_r0 dW_r1 _ _ (truncf .bf16 v23 _) v25 v15) (ix2 p j)

/-! ## The blocks, read against the whole arrays -/

theorem at_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem at_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem at_2 : ∀ t : Fin cfg0.N, win0_2.index t (0 : Fin 1) = t.val :=
  (by decide +kernel : ∀ t : Fin grid0.N, win0_2.index t (0 : Fin 1) = t.val)
theorem at_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem at_8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem at_9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem at_10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

/-- Row p of the first sentence's block at point t is row 1024·t + p of the array. -/
theorem sent1_blk (c : Dev nD) (t : Fin cfg0.N) (p : Fin 1024) (k : Fin 768) (r : Fin 16384) (hr : r.val = t.val * 1024 + p.val) :
    (iblk m c 0 t : FVec Ideal S1024x768 .f32) (ix2 p k) = m ((c : Thread nD τ).loc main_arg0) (ix2 r k) := by
  obtain ⟨e0, e1⟩ := at_0 t
  unfold iblk
  rw [View.read_apply]
  show V m c main_arg0 _ = _
  refine congrArg _ ?_
  funext a
  apply Fin.ext
  match a with
  | ⟨0, _⟩ => show win0_0.index t (0 : Fin 2) * 1024 + 1 * p.val = r.val; rw [e0, hr]; omega
  | ⟨1, _⟩ => show win0_0.index t (1 : Fin 2) * 768 + 1 * k.val = k.val; rw [e1]; omega

/-- Row p of the second sentence's block at point t is row 1024·t + p of the array. -/
theorem sent2_blk (c : Dev nD) (t : Fin cfg0.N) (p : Fin 1024) (k : Fin 768) (r : Fin 16384) (hr : r.val = t.val * 1024 + p.val) :
    (iblk m c 1 t : FVec Ideal S1024x768 .f32) (ix2 p k) = m ((c : Thread nD τ).loc main_arg1) (ix2 r k) := by
  obtain ⟨e0, e1⟩ := at_1 t
  unfold iblk
  rw [View.read_apply]
  show V m c main_arg1 _ = _
  refine congrArg _ ?_
  funext a
  apply Fin.ext
  match a with
  | ⟨0, _⟩ => show win0_1.index t (0 : Fin 2) * 1024 + 1 * p.val = r.val; rw [e0, hr]; omega
  | ⟨1, _⟩ => show win0_1.index t (1 : Fin 2) * 768 + 1 * k.val = k.val; rw [e1]; omega

/-- Entry p of the relation numbers' block at point t is the relation number of batch row 1024·t + p. -/
theorem rel_blk (c : Dev nD) (t : Fin cfg0.N) (p : Fin 1024) (r : Fin 16384) (hr : r.val = t.val * 1024 + p.val) :
    (iblk m c 2 t : Vec Ideal S1024 .i32) (ix1 p) = m ((c : Thread nD τ).loc main_arg2) (ix1 r) := by
  have e0 := at_2 t
  unfold iblk
  rw [View.read_apply]
  show V m c main_arg2 _ = _
  refine congrArg _ ?_
  funext a
  apply Fin.ext
  match a with
  | ⟨0, _⟩ => show win0_2.index t (0 : Fin 1) * 1024 + 1 * p.val = r.val; rw [e0, hr]; omega

/-! ## The four result arrays -/

/-- The first sentence's result: the layer of the whole arrays. -/
abbrev result1 (c : Dev nD) : Buf (Elt Ideal) ((c : Thread nD τ).loc main_v0_0) := layer (B := 16384) (S := 768) (M := 512) (R := 1000) (m ((c : Thread nD τ).loc main_arg0)) (m ((c : Thread nD τ).loc main_arg2)) (m ((c : Thread nD τ).loc main_arg3)) (m ((c : Thread nD τ).loc main_arg4)) (m ((c : Thread nD τ).loc main_arg5))
/-- The second sentence's result. -/
abbrev result2 (c : Dev nD) : Buf (Elt Ideal) ((c : Thread nD τ).loc main_v0_1) := layer (B := 16384) (S := 768) (M := 512) (R := 1000) (m ((c : Thread nD τ).loc main_arg1)) (m ((c : Thread nD τ).loc main_arg2)) (m ((c : Thread nD τ).loc main_arg3)) (m ((c : Thread nD τ).loc main_arg4)) (m ((c : Thread nD τ).loc main_arg5))
/-- The relation embeddings the batch's relation numbers select. -/
abbrev relations (c : Dev nD) : Buf (Elt Ideal) ((c : Thread nD τ).loc main_v0_2) := picked (B := 16384) (R := 1000) (N := 512) (m ((c : Thread nD τ).loc main_arg2)) (m ((c : Thread nD τ).loc main_arg6))
/-- The hyperplane normals the batch's relation numbers select. -/
abbrev normals (c : Dev nD) : Buf (Elt Ideal) ((c : Thread nD τ).loc main_v0_3) := picked (B := 16384) (R := 1000) (N := 512) (m ((c : Thread nD τ).loc main_arg2)) (m ((c : Thread nD τ).loc main_arg5))

/-- What point t writes back to result array 0: block t of the whole-array function. -/
theorem flushed7_eq (c : Dev nD) (t : Fin cfg0.N) :
    (dats m 0 c).flushed 7 t = ((cfg0.win 7).blk t).view.read (Elt Ideal) (result1 m c) := by
  rw [Cert.KernelIdeal.Value.flushed7 m c t, left_7 m c t]
  obtain ⟨e0, e1⟩ := at_7 t
  funext j
  obtain ⟨p, q, rfl⟩ : ∃ (p : Fin 1024) (q : Fin 512), j = ix2 p q := ⟨j 0, j 1, eq_ix2 j⟩
  show k0_pay10 (iblk m c 2 t) (tables (V m c main_arg5) (V m c main_arg6)) (iblk m c 4 t) (iblk m c 0 t) (k0_pay2 (V m c main_arg3)) (ix2 p q) = result1 m c (((cfg0.win 7).blk t).view.emb (ix2 p q))
  refine (sent1_val _ _ _ _ _ _ p q).trans ?_
  have hr : ((((cfg0.win 7).blk t).view.emb (ix2 p q)) 0).val = t.val * 1024 + p.val := by
    show win0_7.index t (0 : Fin 2) * 1024 + 1 * p.val = _
    rw [e0]; omega
  have hq : ((((cfg0.win 7).blk t).view.emb (ix2 p q)) 1).val = q.val := by
    show win0_7.index t (1 : Fin 2) * 512 + 1 * q.val = _
    rw [e1]; omega
  exact layer_of_block _ _ _ (fun p' => (iblk m c 2 t : Vec Ideal S1024 .i32) (ix1 p')) _ _ _ _ _ _ p q _ hq
    (fun k => sent1_blk m c t p k _ hr) (rel_blk m c t p _ hr) (weight_copy _) (bias_blk m c t) rfl

/-- An index of the result array is in point t's block iff each coordinate is in the block's range. -/
theorem mem_blk7 (t : Fin cfg0.N) (i : S16384x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v0_0).slice (win0_7.rect t)).set ↔ _
  rw [View.set_slice_whole, Rect.mem_set_unit]
  exact Iff.rfl

/-- Row r of the batch is in the block of point r / 1024: the blocks tile the array. -/
theorem cover7 (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨e0, e1⟩ := at_7 t
  refine ⟨t, flush0_7 t, ?_⟩
  rw [mem_blk7]
  intro a
  match a with
  | ⟨0, _⟩ =>
    show win0_7.index t (0 : Fin 2) * 1024 ≤ (i 0).val ∧ (i 0).val < win0_7.index t (0 : Fin 2) * 1024 + 1024
    rw [e0, ht]; omega
  | ⟨1, _⟩ =>
    show win0_7.index t (1 : Fin 2) * 512 ≤ (i 1).val ∧ (i 1).val < win0_7.index t (1 : Fin 2) * 512 + 512
    rw [e1]; omega

/-- So result array 0 ends holding the whole-array function. -/
theorem final7 (c : Dev nD) : (dats m 0 c).arrAt 7 cfg0.N = result1 m c :=
  (dats m 0 c).arrAt_eq_of_cover 7 _ (fun t _ => flushed7_eq m c t) cover7

/-- What point t writes back to result array 1: block t of the whole-array function. -/
theorem flushed8_eq (c : Dev nD) (t : Fin cfg0.N) :
    (dats m 0 c).flushed 8 t = ((cfg0.win 8).blk t).view.read (Elt Ideal) (result2 m c) := by
  rw [Cert.KernelIdeal.Value.flushed8 m c t, left_8 m c t]
  obtain ⟨e0, e1⟩ := at_8 t
  funext j
  obtain ⟨p, q, rfl⟩ : ∃ (p : Fin 1024) (q : Fin 512), j = ix2 p q := ⟨j 0, j 1, eq_ix2 j⟩
  show k0_pay1 (k0_pay6 (iblk m c 2 t) (tables (V m c main_arg5) (V m c main_arg6))) (k0_pay9 (iblk m c 4 t) (iblk m c 1 t) (k0_pay2 (V m c main_arg3))) (ix2 p q) = result2 m c (((cfg0.win 8).blk t).view.emb (ix2 p q))
  refine (sent2_val _ _ _ _ _ _ p q).trans ?_
  have hr : ((((cfg0.win 8).blk t).view.emb (ix2 p q)) 0).val = t.val * 1024 + p.val := by
    show win0_8.index t (0 : Fin 2) * 1024 + 1 * p.val = _
    rw [e0]; omega
  have hq : ((((cfg0.win 8).blk t).view.emb (ix2 p q)) 1).val = q.val := by
    show win0_8.index t (1 : Fin 2) * 512 + 1 * q.val = _
    rw [e1]; omega
  exact layer_of_block _ _ _ (fun p' => (iblk m c 2 t : Vec Ideal S1024 .i32) (ix1 p')) _ _ _ _ _ _ p q _ hq
    (fun k => sent2_blk m c t p k _ hr) (rel_blk m c t p _ hr) (weight_copy _) (bias_blk m c t) rfl

/-- An index of the result array is in point t's block iff each coordinate is in the block's range. -/
theorem mem_blk8 (t : Fin cfg0.N) (i : S16384x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v0_1).slice (win0_8.rect t)).set ↔ _
  rw [View.set_slice_whole, Rect.mem_set_unit]
  exact Iff.rfl

/-- Row r of the batch is in the block of point r / 1024: the blocks tile the array. -/
theorem cover8 (i : S16384x512.Idx) : ∃ t : Fin cfg0.N, (cfg0.win 8).flush t = true ∧ i ∈ ((cfg0.win 8).blk t).view.set := by
  have hi0 : (i 0).val < 16384 := (i 0).isLt
  have hi1 : (i 1).val < 512 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨e0, e1⟩ := at_8 t
  refine ⟨t, flush0_8 t, ?_⟩
  rw [mem_blk8]
  intro a
  match a with
  | ⟨0, _⟩ =>
    show win0_8.index t (0 : Fin 2) * 1024 ≤ (i 0).val ∧ (i 0).val < win0_8.index t (0 : Fin 2) * 1024 + 1024
    rw [e0, ht]; omega
  | ⟨1, _⟩ =>
    show win0_8.index t (1 : Fin 2) * 512 ≤ (i 1).val ∧ (i 1).val < win0_8.index t (1 : Fin 2) * 512 + 512
    rw [e1]; omega

/-- So result array 1 ends holding the whole-array function. -/
theorem final8 (c : Dev nD) : (dats m 0 c).arrAt 8 cfg0.N = result2 m c :=
  (dats m 0 c).arrAt_eq_of_cover 8 _ (fun t _ => flushed8_eq m c t) cover8

/-- What point t writes back to result array 2: block t of the whole-array function. -/
theorem flushed9_eq (c : Dev nD) (t : Fin cfg0.N) :
    (dats m 0 c).flushed 9 t = ((cfg0.win 9).blk t).view.read (Elt Ideal) (relations m c) := by
  rw [Cert.KernelIdeal.Value.flushed9 m c t, left_9 m c t]
  obtain ⟨e0, e1⟩ := at_9 t
  funext j
  obtain ⟨p, q, rfl⟩ : ∃ (p : Fin 1024) (q : Fin 512), j = ix2 p q := ⟨j 0, j 1, eq_ix2 j⟩
  show k0_pay7 (iblk m c 2 t) (tables (V m c main_arg5) (V m c main_arg6)) (ix2 p q) = relations m c (((cfg0.win 9).blk t).view.emb (ix2 p q))
  refine (embeds_val _ _ _ p q).trans ?_
  have hr : ((((cfg0.win 9).blk t).view.emb (ix2 p q)) 0).val = t.val * 1024 + p.val := by
    show win0_9.index t (0 : Fin 2) * 1024 + 1 * p.val = _
    rw [e0]; omega
  have hq : ((((cfg0.win 9).blk t).view.emb (ix2 p q)) 1).val = q.val := by
    show win0_9.index t (1 : Fin 2) * 512 + 1 * q.val = _
    rw [e1]; omega
  exact picked_of_block _ (fun p' => (iblk m c 2 t : Vec Ideal S1024 .i32) (ix1 p')) _ _ p q _ hq (rel_blk m c t p _ hr) rfl

/-- An index of the result array is in point t's block iff each coordinate is in the block's range. -/
theorem mem_blk9 (t : Fin cfg0.N) (i : S16384x512.Idx) :
    i ∈ ((cfg0.win 9).blk t).view.set ↔ ∀ a : Fin 2, win0_9.index t a * S1024x512.size a ≤ (i a).val ∧ (i a).val < win0_9.index t a * S1024x512.size a + S1024x512.size a := by
  show i ∈ ((View.whole main_v0_2).slice (win0_9.rect t)).set ↔ _
  rw [View.set_slice_whole, Rect.mem_set_unit]
  exact Iff.rfl

/-- Row r of the batch is in the block of point r / 1024: the blocks tile the array. -/
theorem cover9 (i : S16384x512.Idx) : ∃ t : Fin cfg0.N, (cfg0.win 9).flush t = true ∧ i ∈ ((cfg0.win 9).blk t).view.set := by
  have hi0 : (i 0).val < 16384 := (i 0).isLt
  have hi1 : (i 1).val < 512 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨e0, e1⟩ := at_9 t
  refine ⟨t, flush0_9 t, ?_⟩
  rw [mem_blk9]
  intro a
  match a with
  | ⟨0, _⟩ =>
    show win0_9.index t (0 : Fin 2) * 1024 ≤ (i 0).val ∧ (i 0).val < win0_9.index t (0 : Fin 2) * 1024 + 1024
    rw [e0, ht]; omega
  | ⟨1, _⟩ =>
    show win0_9.index t (1 : Fin 2) * 512 ≤ (i 1).val ∧ (i 1).val < win0_9.index t (1 : Fin 2) * 512 + 512
    rw [e1]; omega

/-- So result array 2 ends holding the whole-array function. -/
theorem final9 (c : Dev nD) : (dats m 0 c).arrAt 9 cfg0.N = relations m c :=
  (dats m 0 c).arrAt_eq_of_cover 9 _ (fun t _ => flushed9_eq m c t) cover9

/-- What point t writes back to result array 3: block t of the whole-array function. -/
theorem flushed10_eq (c : Dev nD) (t : Fin cfg0.N) :
    (dats m 0 c).flushed 10 t = ((cfg0.win 10).blk t).view.read (Elt Ideal) (normals m c) := by
  rw [Cert.KernelIdeal.Value.flushed10 m c t, left_10 m c t]
  obtain ⟨e0, e1⟩ := at_10 t
  funext j
  obtain ⟨p, q, rfl⟩ : ∃ (p : Fin 1024) (q : Fin 512), j = ix2 p q := ⟨j 0, j 1, eq_ix2 j⟩
  show k0_pay6 (iblk m c 2 t) (tables (V m c main_arg5) (V m c main_arg6)) (ix2 p q) = normals m c (((cfg0.win 10).blk t).view.emb (ix2 p q))
  refine (normals_val _ _ _ p q).trans ?_
  have hr : ((((cfg0.win 10).blk t).view.emb (ix2 p q)) 0).val = t.val * 1024 + p.val := by
    show win0_10.index t (0 : Fin 2) * 1024 + 1 * p.val = _
    rw [e0]; omega
  have hq : ((((cfg0.win 10).blk t).view.emb (ix2 p q)) 1).val = q.val := by
    show win0_10.index t (1 : Fin 2) * 512 + 1 * q.val = _
    rw [e1]; omega
  exact picked_of_block _ (fun p' => (iblk m c 2 t : Vec Ideal S1024 .i32) (ix1 p')) _ _ p q _ hq (rel_blk m c t p _ hr) rfl

/-- An index of the result array is in point t's block iff each coordinate is in the block's range. -/
theorem mem_blk10 (t : Fin cfg0.N) (i : S16384x512.Idx) :
    i ∈ ((cfg0.win 10).blk t).view.set ↔ ∀ a : Fin 2, win0_10.index t a * S1024x512.size a ≤ (i a).val ∧ (i a).val < win0_10.index t a * S1024x512.size a + S1024x512.size a := by
  show i ∈ ((View.whole main_v0_3).slice (win0_10.rect t)).set ↔ _
  rw [View.set_slice_whole, Rect.mem_set_unit]
  exact Iff.rfl

/-- Row r of the batch is in the block of point r / 1024: the blocks tile the array. -/
theorem cover10 (i : S16384x512.Idx) : ∃ t : Fin cfg0.N, (cfg0.win 10).flush t = true ∧ i ∈ ((cfg0.win 10).blk t).view.set := by
  have hi0 : (i 0).val < 16384 := (i 0).isLt
  have hi1 : (i 1).val < 512 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨e0, e1⟩ := at_10 t
  refine ⟨t, flush0_10 t, ?_⟩
  rw [mem_blk10]
  intro a
  match a with
  | ⟨0, _⟩ =>
    show win0_10.index t (0 : Fin 2) * 1024 ≤ (i 0).val ∧ (i 0).val < win0_10.index t (0 : Fin 2) * 1024 + 1024
    rw [e0, ht]; omega
  | ⟨1, _⟩ =>
    show win0_10.index t (1 : Fin 2) * 512 ≤ (i 1).val ∧ (i 1).val < win0_10.index t (1 : Fin 2) * 512 + 512
    rw [e1]; omega

/-- So result array 3 ends holding the whole-array function. -/
theorem final10 (c : Dev nD) : (dats m 0 c).arrAt 10 cfg0.N = normals m c :=
  (dats m 0 c).arrAt_eq_of_cover 10 _ (fun t _ => flushed10_eq m c t) cover10

/-! ## The run, read -/

/-- Every weakly fair execution of the kernel terminates with its four results at the whole-array functions of its
    arguments, and the arguments unchanged. -/
theorem run : θ_run defs (onTc (τ := τ) (main (F := Ideal))) ⟨m, fun _ => 0, ρ⟩ fun r => ∀ c : Dev nD,
      r.2.mem ((c : Thread nD τ).loc main_v0_0) = result1 m c
      ∧ r.2.mem ((c : Thread nD τ).loc main_v0_1) = result2 m c
      ∧ r.2.mem ((c : Thread nD τ).loc main_v0_2) = relations m c
      ∧ r.2.mem ((c : Thread nD τ).loc main_v0_3) = normals m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c),
      (h c).2.2.1.trans (final9 m c), (h c).2.2.2.1.trans (final10 m c), (h c).2.2.2.2⟩)
    (Cert.KernelIdeal.Value.run_blocks m ρ)

end Cert.KernelIdeal.Arrays

end
-- ==== Proof.LibRowBias.lean ====
/-
  GENERAL LEMMAS: a bias vector kept as a matrix of ONE row, [1, N]. Nothing here mentions a program; the number of rows R,
  the contracted extent K and the bias's length N are arbitrary.

  * rowOf: the one row of a [1, N] matrix as a vector of length N; a vector cast to [1, N] has itself as that row.
  * bias_block: a [1, N] matrix cast to its own shape and laid along R rows reads, at (p, q), its row at q.
  * affineAt_of_matmul_row: the matrix unit's product into a zero accumulator plus such a one-row bias, read at (p, q), is
    the entry (p, q) of the affine layer h · W + b with b the row.
  Entries of any type for the layout facts; the affine fact is on extended reals and needs no finiteness.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«176442_g2000002567377267_pallasbulk_162_25_alg».proof.Proof.LibMatmulRows
import proofs.«176442_g2000002567377267_pallasbulk_162_25_alg».proof.Proof.LibDenseLayers

noncomputable section

namespace Cert.LibRowBias

open Idealize.ShloMosaic Idealize.ShloMosaic.ValueIdx Cert.LibDenseLayers
open scoped BigOperators

variable {α : Type}

/-- The one row of a [1, N] matrix, as a vector of length N. -/
def rowOf {N : ℕ} (B : (⟨2, ![1, N]⟩ : Shape).Idx → α) : (⟨1, ![N]⟩ : Shape).Idx → α :=
  fun j => B (ix2 (0 : Fin 1) (j 0))

/-- The row at q is the matrix at (0, q). -/
theorem rowOf_ix1 {N : ℕ} (B : (⟨2, ![1, N]⟩ : Shape).Idx → α) (q : Fin N) : rowOf B (ix1 q) = B (ix2 (0 : Fin 1) q) := rfl

/-- A vector cast to a one-row matrix has that vector as its row. -/
theorem rowOf_shapeCast {N : ℕ} (b : (⟨1, ![N]⟩ : Shape).Idx → α) (hc : (⟨1, ![N]⟩ : Shape).ShapeCasts ⟨2, ![1, N]⟩) :
    rowOf (shapeCast ⟨2, ![1, N]⟩ b hc) = b := by
  funext j
  obtain ⟨q, rfl⟩ : ∃ q : Fin N, j = ix1 q := ⟨j 0, eq_ix1 j⟩
  exact shapeCast_a_1a_apply b hc 0 q

/-- A one-row matrix, cast to its own shape and laid along R rows, reads at (p, q) its row at q. -/
theorem bias_block {R N : ℕ} (B : (⟨2, ![1, N]⟩ : Shape).Idx → α) (hc : (⟨2, ![1, N]⟩ : Shape).ShapeCasts ⟨2, ![1, N]⟩)
    (hb : (⟨2, ![1, N]⟩ : Shape).Broadcasts ⟨2, ![R, N]⟩) (p : Fin R) (q : Fin N) :
    broadcastTo ⟨2, ![R, N]⟩ (shapeCast ⟨2, ![1, N]⟩ B hc) hb (ix2 p q) = B (ix2 (0 : Fin 1) q) := by
  rw [shapeCast_self]
  exact broadcastTo_1b_ab_apply B hb p q

/-- The matrix unit's product into a zero accumulator plus a one-row bias laid along the rows, read at (p, q): row p of
    h against column q of W, plus the bias row at q. -/
theorem affineAt_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (B : FVec Ideal ⟨2, ![1, N]⟩ .f32)
    (p : Fin R) (q : Fin N) :
    matmul d none h W (constant (F := Ideal) ⟨2, ![R, N]⟩ .f32 0x00000000#32) (ix2 p q)
      + broadcastTo ⟨2, ![R, N]⟩ (shapeCast ⟨2, ![1, N]⟩ B hc) hb (ix2 p q) = affineAt h W (rowOf B) p q := by
  rw [Cert.LibMatmulRows.matmul_rows d hrank hsize hl0 hl1 hr0 hr1 h W p q, bias_block B hc hb p q]
  rfl

end Cert.LibRowBias

end
-- ==== Proof.ReferenceArrays.lean ====
/-
  The reference program's four result arrays, as functions of its argument arrays.

  The reference tiles the batch into 64 blocks of 256 rows. Before the tiled call the host lays the relation numbers
  out as a column [16384, 1] and the bias as a row [1, 512]; neither changes any entry. Inside a block the body builds
  the indicator matrix of the block's relation numbers, contracts it with each table, forms the hidden matrix
  x · W + b for both sentences, and removes from each hidden row its component along the selected normal. Read at an
  entry these are the layer's formulas for that row; row p of block t is row 256·t + p of the batch, and the blocks
  tile the batch, so each result array is the layer (or the selected table rows) of the whole arrays.
-/
import proofs.«176442_g2000002567377267_pallasbulk_162_25_alg».proof.Proof.Gen.ReferenceIdeal.Value
import Idealize.ShloMosaic.Lib.Pipeline.Value
import Idealize.ShloMosaic.Lib.StableHlo.Run
import Idealize.ShloMosaic.Lib.ValueLayout
import proofs.«176442_g2000002567377267_pallasbulk_162_25_alg».proof.Proof.LibHyperplane
import proofs.«176442_g2000002567377267_pallasbulk_162_25_alg».proof.Proof.LibRowBias

noncomputable section

namespace Cert.ReferenceIdeal.Arrays

open Cert.ReferenceIdeal Cert.ReferenceIdeal.Gen Idealize.ShloMosaic Idealize.ShloMosaic.TcCoe Idealize.SL.Sem
open Idealize.ShloMosaic.ValueIdx Idealize.ShloMosaic.StableHlo
open Cert.Hyperplane Cert.LibDenseLayers Cert.LibRowBias
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

/-! ## The body's values read at an entry -/

/-- The contraction of the indicator matrix with a table: lanes of the first against rows of the second. -/
abbrev dT := dot_S256x1000_S1000x512_S256x512_1_0_0_1_n_n
theorem dT_l0 (i : S256x512.Idx) (s : dT.contr.Idx) : (dT.lhsIdx i s 0).val = (i 0).val := by
  first | rfl | (simp [DotDims.lhsIdx, dT, dot_S256x1000_S1000x512_S256x512_1_0_0_1_n_n]; rfl) | simp [DotDims.lhsIdx, dT, dot_S256x1000_S1000x512_S256x512_1_0_0_1_n_n]
theorem dT_l1 (i : S256x512.Idx) (s : dT.contr.Idx) : (dT.lhsIdx i s 1).val = (s ⟨0, Nat.one_pos⟩).val :=
  dT.lhsIdx_val_of_single rfl i s
theorem dT_r0 (i : S256x512.Idx) (s : dT.contr.Idx) : (dT.rhsIdx i s 0).val = (s ⟨0, Nat.one_pos⟩).val :=
  dT.rhsIdx_val_of_single rfl i s
theorem dT_r1 (i : S256x512.Idx) (s : dT.contr.Idx) : (dT.rhsIdx i s 1).val = (i 1).val := by
  first | rfl | (simp [DotDims.rhsIdx, dT, dot_S256x1000_S1000x512_S256x512_1_0_0_1_n_n]; rfl) | simp [DotDims.rhsIdx, dT, dot_S256x1000_S1000x512_S256x512_1_0_0_1_n_n]

/-- The contraction of a sentence block with the weight. -/
abbrev dW := dot_S256x768_S768x512_S256x512_1_0_0_1_n_n
theorem dW_l0 (i : S256x512.Idx) (s : dW.contr.Idx) : (dW.lhsIdx i s 0).val = (i 0).val := by
  first | rfl | (simp [DotDims.lhsIdx, dW, dot_S256x768_S768x512_S256x512_1_0_0_1_n_n]; rfl) | simp [DotDims.lhsIdx, dW, dot_S256x768_S768x512_S256x512_1_0_0_1_n_n]
theorem dW_l1 (i : S256x512.Idx) (s : dW.contr.Idx) : (dW.lhsIdx i s 1).val = (s ⟨0, Nat.one_pos⟩).val :=
  dW.lhsIdx_val_of_single rfl i s
theorem dW_r0 (i : S256x512.Idx) (s : dW.contr.Idx) : (dW.rhsIdx i s 0).val = (s ⟨0, Nat.one_pos⟩).val :=
  dW.rhsIdx_val_of_single rfl i s
theorem dW_r1 (i : S256x512.Idx) (s : dW.contr.Idx) : (dW.rhsIdx i s 1).val = (i 1).val := by
  first | rfl | (simp [DotDims.rhsIdx, dW, dot_S256x768_S768x512_S256x512_1_0_0_1_n_n]; rfl) | simp [DotDims.rhsIdx, dW, dot_S256x768_S768x512_S256x512_1_0_0_1_n_n]

/-- The block's indicator matrix at (p, k): the indicator row of row p's relation number. -/
theorem indicator_blk (v2 : Vec Ideal S256x1 .i32) (p : Fin 256) (k : Fin 1000) :
    k0_pay2 (F := Ideal) v2 (ix2 p k) = hot (v2 (ix2 p (0 : Fin 1))) k.val := by
  unfold k0_pay2
  try dsimp only
  refine (indicator_apply _ _ _ _ p k).trans ?_
  rw [shapeCast_self]

/-- The block's selected normals at (p, q). -/
theorem normals_val (v2 : Vec Ideal S256x1 .i32) (v7 : FVec Ideal S1000x512 .f32) (p : Fin 256) (q : Fin 512) :
    k0_pay3 (F := Ideal) v2 v7 (ix2 p q) = pick v7 (v2 (ix2 p (0 : Fin 1))) q := by
  unfold k0_pay3
  try dsimp only
  exact pick_of_matmul dT rfl rfl dT_l0 dT_l1 dT_r0 dT_r1 (k0_pay2 v2) v7 (fun p' => v2 (ix2 p' (0 : Fin 1)))
    (indicator_blk v2) p q

/-- The block's selected embeddings at (p, q). -/
theorem embeds_val (v2 : Vec Ideal S256x1 .i32) (v8 : FVec Ideal S1000x512 .f32) (p : Fin 256) (q : Fin 512) :
    k0_pay4 (F := Ideal) v2 v8 (ix2 p q) = pick v8 (v2 (ix2 p (0 : Fin 1))) q := by
  unfold k0_pay4
  try dsimp only
  exact pick_of_matmul dT rfl rfl dT_l0 dT_l1 dT_r0 dT_r1 (k0_pay2 v2) v8 (fun p' => v2 (ix2 p' (0 : Fin 1)))
    (indicator_blk v2) p q

/-- The first sentence's result block at (p, q): the hidden row x · W + b projected along the selected normal. -/
theorem sent1_val (v0 : FVec Ideal S256x768 .f32) (v2 : Vec Ideal S256x1 .i32) (v4 : FVec Ideal S768x512 .f32)
    (v5 : FVec Ideal S1x512 .f32) (v7 : FVec Ideal S1000x512 .f32) (p : Fin 256) (q : Fin 512) :
    k0_pay5 (F := Ideal) v0 v2 v4 v5 v7 (ix2 p q)
      = proj (fun j => pick v7 (v2 (ix2 p (0 : Fin 1))) j) (fun j => affineAt v0 v4 (rowOf v5) p j) q := by
  unfold k0_pay5
  try dsimp only
  refine (proj_apply (k0_pay3 v2 v7) _ _ (.inl rfl) rfl _ _ p q).trans ?_
  refine proj_congr _ _ _ _ (fun j => normals_val v2 v7 p j) (fun j => ?_) q
  unfold k0_pay1
  exact affineAt_of_matmul_row dW rfl rfl dW_l0 dW_l1 dW_r0 dW_r1 _ _ v0 v4 v5 p j

/-- The second sentence's result block at (p, q). -/
theorem sent2_val (v1 : FVec Ideal S256x768 .f32) (v2 : Vec Ideal S256x1 .i32) (v4 : FVec Ideal S768x512 .f32)
    (v5 : FVec Ideal S1x512 .f32) (v7 : FVec Ideal S1000x512 .f32) (p : Fin 256) (q : Fin 512) :
    k0_pay6 (F := Ideal) v1 v2 v4 v5 v7 (ix2 p q)
      = proj (fun j => pick v7 (v2 (ix2 p (0 : Fin 1))) j) (fun j => affineAt v1 v4 (rowOf v5) p j) q := by
  unfold k0_pay6
  try dsimp only
  refine (proj_apply (k0_pay3 v2 v7) _ _ (.inl rfl) rfl _ _ p q).trans ?_
  refine proj_congr _ _ _ _ (fun j => normals_val v2 v7 p j) (fun j => ?_) q
  unfold k0_pay1
  exact affineAt_of_matmul_row dW rfl rfl dW_l0 dW_l1 dW_r0 dW_r1 _ _ v1 v4 v5 p j

/-! ## The blocks, read against the whole arrays -/

theorem at_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem at_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem at_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem origin_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem origin_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem origin_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem origin_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem at_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem at_8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem at_9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem at_10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

/-- The relation numbers as the region finds them: the host has laid them out as a column. -/
theorem relcol_eq (c : Dev nD) :
    (V m c main_v0 : S16384x1.Idx → BitVec 32) = shapeCast S16384x1 (m ((c : Thread nD τ).loc main_arg2)) Facts₀.shapeCasts_S16384_S16384x1 := by
  dsimp only [Gen.V, Gen.hostOps0]
  after_results
  rfl

/-- The bias as the region finds it: the host has laid it out as one row. -/
theorem biasrow_eq (c : Dev nD) :
    (V m c main_v1 : S1x512.Idx → EReal) = shapeCast S1x512 (m ((c : Thread nD τ).loc main_arg4)) Facts₀.shapeCasts_S512_S1x512 := by
  dsimp only [Gen.V, Gen.hostOps0]
  after_results
  rfl

/-- Row p of the first sentence's block at point t is row 256·t + p of the array. -/
theorem sent1_blk (c : Dev nD) (t : Fin cfg0.N) (p : Fin 256) (k : Fin 768) (r : Fin 16384) (hr : r.val = t.val * 256 + p.val) :
    (iblk m c 0 t : FVec Ideal S256x768 .f32) (ix2 p k) = m ((c : Thread nD τ).loc main_arg0) (ix2 r k) := by
  obtain ⟨e0, e1⟩ := at_0 t
  unfold iblk
  rw [View.read_apply]
  show V m c main_arg0 _ = _
  rw [V_main_arg0 m c]
  refine congrArg _ ?_
  funext a
  apply Fin.ext
  match a with
  | ⟨0, _⟩ => show win0_0.index t (0 : Fin 2) * 256 + 1 * p.val = r.val; rw [e0, hr]; omega
  | ⟨1, _⟩ => show win0_0.index t (1 : Fin 2) * 768 + 1 * k.val = k.val; rw [e1]; omega

/-- Row p of the second sentence's block at point t is row 256·t + p of the array. -/
theorem sent2_blk (c : Dev nD) (t : Fin cfg0.N) (p : Fin 256) (k : Fin 768) (r : Fin 16384) (hr : r.val = t.val * 256 + p.val) :
    (iblk m c 1 t : FVec Ideal S256x768 .f32) (ix2 p k) = m ((c : Thread nD τ).loc main_arg1) (ix2 r k) := by
  obtain ⟨e0, e1⟩ := at_1 t
  unfold iblk
  rw [View.read_apply]
  show V m c main_arg1 _ = _
  rw [V_main_arg1 m c]
  refine congrArg _ ?_
  funext a
  apply Fin.ext
  match a with
  | ⟨0, _⟩ => show win0_1.index t (0 : Fin 2) * 256 + 1 * p.val = r.val; rw [e0, hr]; omega
  | ⟨1, _⟩ => show win0_1.index t (1 : Fin 2) * 768 + 1 * k.val = k.val; rw [e1]; omega

/-- Row p of the relation column's block at point t is the relation number of batch row 256·t + p. -/
theorem rel_blk (c : Dev nD) (t : Fin cfg0.N) (p : Fin 256) (r : Fin 16384) (hr : r.val = t.val * 256 + p.val) :
    (iblk m c 2 t : Vec Ideal S256x1 .i32) (ix2 p (0 : Fin 1)) = m ((c : Thread nD τ).loc main_arg2) (ix1 r) := by
  obtain ⟨e0, e1⟩ := at_2 t
  unfold iblk
  rw [View.read_apply]
  show V m c main_v0 _ = _
  rw [relcol_eq m c]
  refine (congrArg _ ?_).trans (Cert.LibLayout.shapeCast_a_a1_apply _ _ r (0 : Fin 1))
  funext a
  apply Fin.ext
  match a with
  | ⟨0, _⟩ => show win0_2.index t (0 : Fin 2) * 256 + 1 * p.val = r.val; rw [e0, hr]; omega
  | ⟨1, _⟩ => show win0_2.index t (1 : Fin 2) * 1 + 1 * 0 = 0; rw [e1]

/-- The weight's block at any point is the weight. -/
theorem weight_blk (c : Dev nD) (t : Fin cfg0.N) :
    (iblk m c 3 t : FVec Ideal S768x512 .f32) = m ((c : Thread nD τ).loc main_arg3) := by
  obtain ⟨e0, e1⟩ := origin_3 t
  funext j
  unfold iblk
  rw [View.read_apply]
  show V m c main_arg3 _ = _
  rw [V_main_arg3 m c]
  refine congrArg _ ?_
  funext a
  apply Fin.ext
  match a with
  | ⟨0, _⟩ => show win0_3.index t (0 : Fin 2) * 768 + 1 * (j 0).val = (j 0).val; rw [e0]; omega
  | ⟨1, _⟩ => show win0_3.index t (1 : Fin 2) * 512 + 1 * (j 1).val = (j 1).val; rw [e1]; omega

/-- The normals table's block at any point is the table. -/
theorem normals_blk (c : Dev nD) (t : Fin cfg0.N) :
    (iblk m c 5 t : FVec Ideal S1000x512 .f32) = m ((c : Thread nD τ).loc main_arg5) := by
  obtain ⟨e0, e1⟩ := origin_5 t
  funext j
  unfold iblk
  rw [View.read_apply]
  show V m c main_arg5 _ = _
  rw [V_main_arg5 m c]
  refine congrArg _ ?_
  funext a
  apply Fin.ext
  match a with
  | ⟨0, _⟩ => show win0_5.index t (0 : Fin 2) * 1000 + 1 * (j 0).val = (j 0).val; rw [e0]; omega
  | ⟨1, _⟩ => show win0_5.index t (1 : Fin 2) * 512 + 1 * (j 1).val = (j 1).val; rw [e1]; omega

/-- The embeddings table's block at any point is the table. -/
theorem embeds_blk (c : Dev nD) (t : Fin cfg0.N) :
    (iblk m c 6 t : FVec Ideal S1000x512 .f32) = m ((c : Thread nD τ).loc main_arg6) := by
  obtain ⟨e0, e1⟩ := origin_6 t
  funext j
  unfold iblk
  rw [View.read_apply]
  show V m c main_arg6 _ = _
  rw [V_main_arg6 m c]
  refine congrArg _ ?_
  funext a
  apply Fin.ext
  match a with
  | ⟨0, _⟩ => show win0_6.index t (0 : Fin 2) * 1000 + 1 * (j 0).val = (j 0).val; rw [e0]; omega
  | ⟨1, _⟩ => show win0_6.index t (1 : Fin 2) * 512 + 1 * (j 1).val = (j 1).val; rw [e1]; omega

/-- The bias row's block at any point has the bias as its one row. -/
theorem bias_blk (c : Dev nD) (t : Fin cfg0.N) :
    rowOf (iblk m c 4 t : FVec Ideal S1x512 .f32) = m ((c : Thread nD τ).loc main_arg4) := by
  obtain ⟨e0, e1⟩ := origin_4 t
  funext j
  obtain ⟨q, rfl⟩ : ∃ q : Fin 512, j = ix1 q := ⟨j 0, eq_ix1 j⟩
  rw [rowOf_ix1]
  unfold iblk
  rw [View.read_apply]
  show V m c main_v1 _ = _
  rw [biasrow_eq m c]
  refine (congrArg _ ?_).trans (shapeCast_a_1a_apply _ _ (0 : Fin 1) q)
  funext a
  apply Fin.ext
  match a with
  | ⟨0, _⟩ => show win0_4.index t (0 : Fin 2) * 1 + 1 * 0 = 0; rw [e0]
  | ⟨1, _⟩ => show win0_4.index t (1 : Fin 2) * 512 + 1 * q.val = q.val; rw [e1]; omega

/-! ## The four result arrays -/

/-- The first sentence's result: the layer of the whole arrays. -/
abbrev result1 (c : Dev nD) : Buf (Elt Ideal) ((c : Thread nD τ).loc main_v2_0) := layer (B := 16384) (S := 768) (M := 512) (R := 1000) (m ((c : Thread nD τ).loc main_arg0)) (m ((c : Thread nD τ).loc main_arg2)) (m ((c : Thread nD τ).loc main_arg3)) (m ((c : Thread nD τ).loc main_arg4)) (m ((c : Thread nD τ).loc main_arg5))
/-- The second sentence's result. -/
abbrev result2 (c : Dev nD) : Buf (Elt Ideal) ((c : Thread nD τ).loc main_v2_1) := layer (B := 16384) (S := 768) (M := 512) (R := 1000) (m ((c : Thread nD τ).loc main_arg1)) (m ((c : Thread nD τ).loc main_arg2)) (m ((c : Thread nD τ).loc main_arg3)) (m ((c : Thread nD τ).loc main_arg4)) (m ((c : Thread nD τ).loc main_arg5))
/-- The relation embeddings the batch's relation numbers select. -/
abbrev relations (c : Dev nD) : Buf (Elt Ideal) ((c : Thread nD τ).loc main_v2_2) := picked (B := 16384) (R := 1000) (N := 512) (m ((c : Thread nD τ).loc main_arg2)) (m ((c : Thread nD τ).loc main_arg6))
/-- The hyperplane normals the batch's relation numbers select. -/
abbrev normals (c : Dev nD) : Buf (Elt Ideal) ((c : Thread nD τ).loc main_v2_3) := picked (B := 16384) (R := 1000) (N := 512) (m ((c : Thread nD τ).loc main_arg2)) (m ((c : Thread nD τ).loc main_arg5))

/-- What point t writes back to result array 0: block t of the whole-array function. -/
theorem flushed7_eq (c : Dev nD) (t : Fin cfg0.N) :
    (dats m 0 c).flushed 7 t = ((cfg0.win 7).blk t).view.read (Elt Ideal) (result1 m c) := by
  show (cfg0.win 7).cut (grid0.coords t) ((dats m 0 c).after 7 t) = _
  rw [after0_7]
  unfold out0_7
  rw [View.canon_unit_zero hz2]
  simp only [View.ld_unit_zero (S := S256x768) hz2, View.ld_unit_zero (S := S256x1) hz2, View.ld_unit_zero (S := S768x512) hz2,
    View.ld_unit_zero (S := S1x512) hz2, View.ld_unit_zero (S := S1000x512) hz2]
  obtain ⟨e0, e1⟩ := at_7 t
  funext j
  obtain ⟨p, q, rfl⟩ : ∃ (p : Fin 256) (q : Fin 512), j = ix2 p q := ⟨j 0, j 1, eq_ix2 j⟩
  show k0_pay5 (iblk m c 0 t) (iblk m c 2 t) (iblk m c 3 t) (iblk m c 4 t) (iblk m c 5 t) (ix2 p q) = result1 m c (((cfg0.win 7).blk t).view.emb (ix2 p q))
  refine (sent1_val _ _ _ _ _ p q).trans ?_
  have hr : ((((cfg0.win 7).blk t).view.emb (ix2 p q)) 0).val = t.val * 256 + p.val := by
    show win0_7.index t (0 : Fin 2) * 256 + 1 * p.val = _
    rw [e0]; omega
  have hq : ((((cfg0.win 7).blk t).view.emb (ix2 p q)) 1).val = q.val := by
    show win0_7.index t (1 : Fin 2) * 512 + 1 * q.val = _
    rw [e1]; omega
  exact layer_of_block _ _ _ (fun p' => (iblk m c 2 t : Vec Ideal S256x1 .i32) (ix2 p' (0 : Fin 1))) _ _ _ _ _ _ p q _ hq
    (fun k => sent1_blk m c t p k _ hr) (rel_blk m c t p _ hr) (weight_blk m c t) (bias_blk m c t) (normals_blk m c t)

/-- An index of the result array is in point t's block iff each coordinate is in the block's range. -/
theorem mem_blk7 (t : Fin cfg0.N) (i : S16384x512.Idx) :
    i ∈ ((cfg0.win 7).blk t).view.set ↔ ∀ a : Fin 2, win0_7.index t a * S256x512.size a ≤ (i a).val ∧ (i a).val < win0_7.index t a * S256x512.size a + S256x512.size a := by
  show i ∈ ((View.whole main_v2_0).slice (win0_7.rect t)).set ↔ _
  rw [View.set_slice_whole, Rect.mem_set_unit]
  exact Iff.rfl

/-- Row r of the batch is in the block of point r / 256: the blocks tile the array. -/
theorem cover7 (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hN : cfg0.N = 64 := N_0
  obtain ⟨t, ht⟩ : ∃ t : Fin cfg0.N, t.val = (i 0).val / 256 := ⟨⟨(i 0).val / 256, by rw [hN]; omega⟩, rfl⟩
  obtain ⟨e0, e1⟩ := at_7 t
  refine ⟨t, flush0_7 t, ?_⟩
  rw [mem_blk7]
  intro a
  match a with
  | ⟨0, _⟩ =>
    show win0_7.index t (0 : Fin 2) * 256 ≤ (i 0).val ∧ (i 0).val < win0_7.index t (0 : Fin 2) * 256 + 256
    rw [e0, ht]; omega
  | ⟨1, _⟩ =>
    show win0_7.index t (1 : Fin 2) * 512 ≤ (i 1).val ∧ (i 1).val < win0_7.index t (1 : Fin 2) * 512 + 512
    rw [e1]; omega

/-- So result array 0 ends holding the whole-array function. -/
theorem final7 (c : Dev nD) : (dats m 0 c).arrAt 7 cfg0.N = result1 m c :=
  (dats m 0 c).arrAt_eq_of_cover 7 _ (fun t _ => flushed7_eq m c t) cover7

/-- What point t writes back to result array 1: block t of the whole-array function. -/
theorem flushed8_eq (c : Dev nD) (t : Fin cfg0.N) :
    (dats m 0 c).flushed 8 t = ((cfg0.win 8).blk t).view.read (Elt Ideal) (result2 m c) := by
  show (cfg0.win 8).cut (grid0.coords t) ((dats m 0 c).after 8 t) = _
  rw [after0_8]
  unfold out0_8
  rw [View.canon_unit_zero hz2]
  simp only [View.ld_unit_zero (S := S256x768) hz2, View.ld_unit_zero (S := S256x1) hz2, View.ld_unit_zero (S := S768x512) hz2,
    View.ld_unit_zero (S := S1x512) hz2, View.ld_unit_zero (S := S1000x512) hz2]
  obtain ⟨e0, e1⟩ := at_8 t
  funext j
  obtain ⟨p, q, rfl⟩ : ∃ (p : Fin 256) (q : Fin 512), j = ix2 p q := ⟨j 0, j 1, eq_ix2 j⟩
  show k0_pay6 (iblk m c 1 t) (iblk m c 2 t) (iblk m c 3 t) (iblk m c 4 t) (iblk m c 5 t) (ix2 p q) = result2 m c (((cfg0.win 8).blk t).view.emb (ix2 p q))
  refine (sent2_val _ _ _ _ _ p q).trans ?_
  have hr : ((((cfg0.win 8).blk t).view.emb (ix2 p q)) 0).val = t.val * 256 + p.val := by
    show win0_8.index t (0 : Fin 2) * 256 + 1 * p.val = _
    rw [e0]; omega
  have hq : ((((cfg0.win 8).blk t).view.emb (ix2 p q)) 1).val = q.val := by
    show win0_8.index t (1 : Fin 2) * 512 + 1 * q.val = _
    rw [e1]; omega
  exact layer_of_block _ _ _ (fun p' => (iblk m c 2 t : Vec Ideal S256x1 .i32) (ix2 p' (0 : Fin 1))) _ _ _ _ _ _ p q _ hq
    (fun k => sent2_blk m c t p k _ hr) (rel_blk m c t p _ hr) (weight_blk m c t) (bias_blk m c t) (normals_blk m c t)

/-- An index of the result array is in point t's block iff each coordinate is in the block's range. -/
theorem mem_blk8 (t : Fin cfg0.N) (i : S16384x512.Idx) :
    i ∈ ((cfg0.win 8).blk t).view.set ↔ ∀ a : Fin 2, win0_8.index t a * S256x512.size a ≤ (i a).val ∧ (i a).val < win0_8.index t a * S256x512.size a + S256x512.size a := by
  show i ∈ ((View.whole main_v2_1).slice (win0_8.rect t)).set ↔ _
  rw [View.set_slice_whole, Rect.mem_set_unit]
  exact Iff.rfl

/-- Row r of the batch is in the block of point r / 256: the blocks tile the array. -/
theorem cover8 (i : S16384x512.Idx) : ∃ t : Fin cfg0.N, (cfg0.win 8).flush t = true ∧ i ∈ ((cfg0.win 8).blk t).view.set := by
  have hi0 : (i 0).val < 16384 := (i 0).isLt
  have hi1 : (i 1).val < 512 := (i 1).isLt
  have hN : cfg0.N = 64 := N_0
  obtain ⟨t, ht⟩ : ∃ t : Fin cfg0.N, t.val = (i 0).val / 256 := ⟨⟨(i 0).val / 256, by rw [hN]; omega⟩, rfl⟩
  obtain ⟨e0, e1⟩ := at_8 t
  refine ⟨t, flush0_8 t, ?_⟩
  rw [mem_blk8]
  intro a
  match a with
  | ⟨0, _⟩ =>
    show win0_8.index t (0 : Fin 2) * 256 ≤ (i 0).val ∧ (i 0).val < win0_8.index t (0 : Fin 2) * 256 + 256
    rw [e0, ht]; omega
  | ⟨1, _⟩ =>
    show win0_8.index t (1 : Fin 2) * 512 ≤ (i 1).val ∧ (i 1).val < win0_8.index t (1 : Fin 2) * 512 + 512
    rw [e1]; omega

/-- So result array 1 ends holding the whole-array function. -/
theorem final8 (c : Dev nD) : (dats m 0 c).arrAt 8 cfg0.N = result2 m c :=
  (dats m 0 c).arrAt_eq_of_cover 8 _ (fun t _ => flushed8_eq m c t) cover8

/-- What point t writes back to result array 2: block t of the whole-array function. -/
theorem flushed9_eq (c : Dev nD) (t : Fin cfg0.N) :
    (dats m 0 c).flushed 9 t = ((cfg0.win 9).blk t).view.read (Elt Ideal) (relations m c) := by
  show (cfg0.win 9).cut (grid0.coords t) ((dats m 0 c).after 9 t) = _
  rw [after0_9]
  unfold out0_9
  rw [View.canon_unit_zero hz2]
  simp only [View.ld_unit_zero (S := S256x768) hz2, View.ld_unit_zero (S := S256x1) hz2, View.ld_unit_zero (S := S768x512) hz2,
    View.ld_unit_zero (S := S1x512) hz2, View.ld_unit_zero (S := S1000x512) hz2]
  obtain ⟨e0, e1⟩ := at_9 t
  funext j
  obtain ⟨p, q, rfl⟩ : ∃ (p : Fin 256) (q : Fin 512), j = ix2 p q := ⟨j 0, j 1, eq_ix2 j⟩
  show k0_pay4 (iblk m c 2 t) (iblk m c 6 t) (ix2 p q) = relations m c (((cfg0.win 9).blk t).view.emb (ix2 p q))
  refine (embeds_val _ _ p q).trans ?_
  have hr : ((((cfg0.win 9).blk t).view.emb (ix2 p q)) 0).val = t.val * 256 + p.val := by
    show win0_9.index t (0 : Fin 2) * 256 + 1 * p.val = _
    rw [e0]; omega
  have hq : ((((cfg0.win 9).blk t).view.emb (ix2 p q)) 1).val = q.val := by
    show win0_9.index t (1 : Fin 2) * 512 + 1 * q.val = _
    rw [e1]; omega
  exact picked_of_block _ (fun p' => (iblk m c 2 t : Vec Ideal S256x1 .i32) (ix2 p' (0 : Fin 1))) _ _ p q _ hq
    (rel_blk m c t p _ hr) (embeds_blk m c t)

/-- An index of the result array is in point t's block iff each coordinate is in the block's range. -/
theorem mem_blk9 (t : Fin cfg0.N) (i : S16384x512.Idx) :
    i ∈ ((cfg0.win 9).blk t).view.set ↔ ∀ a : Fin 2, win0_9.index t a * S256x512.size a ≤ (i a).val ∧ (i a).val < win0_9.index t a * S256x512.size a + S256x512.size a := by
  show i ∈ ((View.whole main_v2_2).slice (win0_9.rect t)).set ↔ _
  rw [View.set_slice_whole, Rect.mem_set_unit]
  exact Iff.rfl

/-- Row r of the batch is in the block of point r / 256: the blocks tile the array. -/
theorem cover9 (i : S16384x512.Idx) : ∃ t : Fin cfg0.N, (cfg0.win 9).flush t = true ∧ i ∈ ((cfg0.win 9).blk t).view.set := by
  have hi0 : (i 0).val < 16384 := (i 0).isLt
  have hi1 : (i 1).val < 512 := (i 1).isLt
  have hN : cfg0.N = 64 := N_0
  obtain ⟨t, ht⟩ : ∃ t : Fin cfg0.N, t.val = (i 0).val / 256 := ⟨⟨(i 0).val / 256, by rw [hN]; omega⟩, rfl⟩
  obtain ⟨e0, e1⟩ := at_9 t
  refine ⟨t, flush0_9 t, ?_⟩
  rw [mem_blk9]
  intro a
  match a with
  | ⟨0, _⟩ =>
    show win0_9.index t (0 : Fin 2) * 256 ≤ (i 0).val ∧ (i 0).val < win0_9.index t (0 : Fin 2) * 256 + 256
    rw [e0, ht]; omega
  | ⟨1, _⟩ =>
    show win0_9.index t (1 : Fin 2) * 512 ≤ (i 1).val ∧ (i 1).val < win0_9.index t (1 : Fin 2) * 512 + 512
    rw [e1]; omega

/-- So result array 2 ends holding the whole-array function. -/
theorem final9 (c : Dev nD) : (dats m 0 c).arrAt 9 cfg0.N = relations m c :=
  (dats m 0 c).arrAt_eq_of_cover 9 _ (fun t _ => flushed9_eq m c t) cover9

/-- What point t writes back to result array 3: block t of the whole-array function. -/
theorem flushed10_eq (c : Dev nD) (t : Fin cfg0.N) :
    (dats m 0 c).flushed 10 t = ((cfg0.win 10).blk t).view.read (Elt Ideal) (normals m c) := by
  show (cfg0.win 10).cut (grid0.coords t) ((dats m 0 c).after 10 t) = _
  rw [after0_10]
  unfold out0_10
  rw [View.canon_unit_zero hz2]
  simp only [View.ld_unit_zero (S := S256x768) hz2, View.ld_unit_zero (S := S256x1) hz2, View.ld_unit_zero (S := S768x512) hz2,
    View.ld_unit_zero (S := S1x512) hz2, View.ld_unit_zero (S := S1000x512) hz2]
  obtain ⟨e0, e1⟩ := at_10 t
  funext j
  obtain ⟨p, q, rfl⟩ : ∃ (p : Fin 256) (q : Fin 512), j = ix2 p q := ⟨j 0, j 1, eq_ix2 j⟩
  show k0_pay3 (iblk m c 2 t) (iblk m c 5 t) (ix2 p q) = normals m c (((cfg0.win 10).blk t).view.emb (ix2 p q))
  refine (normals_val _ _ p q).trans ?_
  have hr : ((((cfg0.win 10).blk t).view.emb (ix2 p q)) 0).val = t.val * 256 + p.val := by
    show win0_10.index t (0 : Fin 2) * 256 + 1 * p.val = _
    rw [e0]; omega
  have hq : ((((cfg0.win 10).blk t).view.emb (ix2 p q)) 1).val = q.val := by
    show win0_10.index t (1 : Fin 2) * 512 + 1 * q.val = _
    rw [e1]; omega
  exact picked_of_block _ (fun p' => (iblk m c 2 t : Vec Ideal S256x1 .i32) (ix2 p' (0 : Fin 1))) _ _ p q _ hq
    (rel_blk m c t p _ hr) (normals_blk m c t)

/-- An index of the result array is in point t's block iff each coordinate is in the block's range. -/
theorem mem_blk10 (t : Fin cfg0.N) (i : S16384x512.Idx) :
    i ∈ ((cfg0.win 10).blk t).view.set ↔ ∀ a : Fin 2, win0_10.index t a * S256x512.size a ≤ (i a).val ∧ (i a).val < win0_10.index t a * S256x512.size a + S256x512.size a := by
  show i ∈ ((View.whole main_v2_3).slice (win0_10.rect t)).set ↔ _
  rw [View.set_slice_whole, Rect.mem_set_unit]
  exact Iff.rfl

/-- Row r of the batch is in the block of point r / 256: the blocks tile the array. -/
theorem cover10 (i : S16384x512.Idx) : ∃ t : Fin cfg0.N, (cfg0.win 10).flush t = true ∧ i ∈ ((cfg0.win 10).blk t).view.set := by
  have hi0 : (i 0).val < 16384 := (i 0).isLt
  have hi1 : (i 1).val < 512 := (i 1).isLt
  have hN : cfg0.N = 64 := N_0
  obtain ⟨t, ht⟩ : ∃ t : Fin cfg0.N, t.val = (i 0).val / 256 := ⟨⟨(i 0).val / 256, by rw [hN]; omega⟩, rfl⟩
  obtain ⟨e0, e1⟩ := at_10 t
  refine ⟨t, flush0_10 t, ?_⟩
  rw [mem_blk10]
  intro a
  match a with
  | ⟨0, _⟩ =>
    show win0_10.index t (0 : Fin 2) * 256 ≤ (i 0).val ∧ (i 0).val < win0_10.index t (0 : Fin 2) * 256 + 256
    rw [e0, ht]; omega
  | ⟨1, _⟩ =>
    show win0_10.index t (1 : Fin 2) * 512 ≤ (i 1).val ∧ (i 1).val < win0_10.index t (1 : Fin 2) * 512 + 512
    rw [e1]; omega

/-- So result array 3 ends holding the whole-array function. -/
theorem final10 (c : Dev nD) : (dats m 0 c).arrAt 10 cfg0.N = normals m c :=
  (dats m 0 c).arrAt_eq_of_cover 10 _ (fun t _ => flushed10_eq m c t) cover10

/-! ## The run, read -/

/-- Every weakly fair execution of the reference terminates with its four results at the whole-array functions of
    its arguments, and the arguments unchanged. -/
theorem run : θ_run defs (onTc (τ := τ) (main (F := Ideal))) ⟨m, fun _ => 0, ρ⟩ fun r => ∀ c : Dev nD,
      r.2.mem ((c : Thread nD τ).loc main_v2_0) = result1 m c
      ∧ r.2.mem ((c : Thread nD τ).loc main_v2_1) = result2 m c
      ∧ r.2.mem ((c : Thread nD τ).loc main_v2_2) = relations m c
      ∧ r.2.mem ((c : Thread nD τ).loc main_v2_3) = normals m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c),
      (h c).2.2.1.trans (final9 m c), (h c).2.2.2.1.trans (final10 m c), (h c).2.2.2.2⟩)
    (Cert.ReferenceIdeal.Value.run_blocks m ρ)

end Cert.ReferenceIdeal.Arrays

end
-- ==== Proof.lean ====
/-
  Translation on hyperplanes, for a batch of 16384 sentence pairs: two programs compute the same four arrays.

  For batch row r with relation number a(r), sentence rows x1(r, ·), x2(r, ·), a weight W [768, 512], a bias b [512], a
  table T of hyperplane normals and a table E of relation embeddings [1000, 512]:
      n(r, ·) = the row of T that a(r) selects,        e(r, ·) = the row of E that a(r) selects,
      h_s(r, ·) = x_s(r, ·) · W + b,                   out_s(r, q) = h_s(r, q) - (sum over j of n(r, j) * h_s(r, j)) * n(r, q),
  and the results are out_1, out_2, e, n. A row is selected by contracting the INDICATOR ROW of a(r) — 1 at lane a(r),
  0 elsewhere, as a comparison word read as a float — against the table, so a number outside 0..999 selects the zero row
  in both programs alike.

  The two programs differ in three ways, none of which changes an entry on extended reals:
    * the tiling: 16 blocks of 1024 rows against 64 blocks of 256 rows — every entry of a result row depends on that
      batch row and on the whole weight, bias and tables only, so each block holds rows of one whole-array function;
    * one contraction of the indicator matrix with the two tables laid side by side, cut into its left and right
      halves, against two separate contractions — column q of the left half is column q of T, column 512 + q is
      column q of E, so the sums agree term by term;
    * copies of the weight and tables in a narrower float format, made once per run of eight grid points and kept in
      buffers the body owns — a change of format is the identity here, and the buffers hold the same contents after
      every point because the arrays they are filled from never change.
  The two sides are the same expression entry by entry; no law that needs finite entries is used, so the precondition
  is never opened. The frames are the generated ones; the idealization rewrote nothing.
-/
import proofs.«176442_g2000002567377267_pallasbulk_162_25_alg».proof.Defs
import proofs.«176442_g2000002567377267_pallasbulk_162_25_alg».proof.Proof.Gen.Kernel
import proofs.«176442_g2000002567377267_pallasbulk_162_25_alg».proof.Proof.Gen.Kernel.Frame
import proofs.«176442_g2000002567377267_pallasbulk_162_25_alg».proof.Proof.Gen.KernelIdeal
import proofs.«176442_g2000002567377267_pallasbulk_162_25_alg».proof.Proof.Gen.KernelIdeal.Frame
import proofs.«176442_g2000002567377267_pallasbulk_162_25_alg».proof.Proof.Gen.ReferenceIdeal
import proofs.«176442_g2000002567377267_pallasbulk_162_25_alg».proof.Proof.Gen.ReferenceIdeal.Frame
import proofs.«176442_g2000002567377267_pallasbulk_162_25_alg».proof.Proof.Gen.Pre_finite_inputs
import proofs.«176442_g2000002567377267_pallasbulk_162_25_alg».proof.Proof.KernelArrays
import proofs.«176442_g2000002567377267_pallasbulk_162_25_alg».proof.Proof.ReferenceArrays
import Idealize.ShloMosaic.Adequacy
import Idealize.ShloMosaic.Init

noncomputable section

namespace Cert.Proof

open Idealize.ShloMosaic Idealize.SL.Sem

/-- The kernel as printed runs to the end without a fault and leaves its arguments alone. -/
theorem frame_kernel : Cert.frame_Kernel := fun m ρ _ => Cert.Kernel.Gen.frame m ρ

/-- So does its reading on extended reals. -/
theorem frame_kernelIdeal : Cert.frame_KernelIdeal := fun m ρ _ => Cert.KernelIdeal.Gen.frame m ρ

/-- So does the reference's. -/
theorem frame_referenceIdeal : Cert.frame_ReferenceIdeal := fun m ρ _ => Cert.ReferenceIdeal.Gen.frame m ρ

/-- Both programs end with the layer's four arrays of their arguments; from arguments that agree these are the same
    arrays. -/
theorem algebraic : Cert.algebraic_KernelIdeal_ReferenceIdeal := by
  intro m ρ m' ρ' _ hagree
  refine ⟨fun c => Cert.KernelIdeal.Arrays.result1 m c, fun c => Cert.KernelIdeal.Arrays.result2 m c,
    fun c => Cert.KernelIdeal.Arrays.relations m c, fun c => Cert.KernelIdeal.Arrays.normals m c,
    Cert.KernelIdeal.Arrays.run m ρ, ?_⟩
  refine (θ_run Cert.ReferenceIdeal.defs _ _).mono (fun r h c => ?_) (Cert.ReferenceIdeal.Arrays.run m' ρ')
  obtain ⟨a0, a1, a2, a3, a4, a5, a6⟩ := hagree c
  obtain ⟨h0, h1, h2, h3, hargs⟩ := h c
  refine ⟨h0.trans ?_, h1.trans ?_, h2.trans ?_, h3.trans ?_, hargs⟩
  · show Cert.ReferenceIdeal.Arrays.result1 m' c = Cert.KernelIdeal.Arrays.result1 m c
    unfold Cert.ReferenceIdeal.Arrays.result1 Cert.KernelIdeal.Arrays.result1
    rw [a0, a2, a3, a4, a5]
  · show Cert.ReferenceIdeal.Arrays.result2 m' c = Cert.KernelIdeal.Arrays.result2 m c
    unfold Cert.ReferenceIdeal.Arrays.result2 Cert.KernelIdeal.Arrays.result2
    rw [a1, a2, a3, a4, a5]
  · show Cert.ReferenceIdeal.Arrays.relations m' c = Cert.KernelIdeal.Arrays.relations m c
    unfold Cert.ReferenceIdeal.Arrays.relations Cert.KernelIdeal.Arrays.relations
    rw [a2, a6]
  · show Cert.ReferenceIdeal.Arrays.normals m' c = Cert.KernelIdeal.Arrays.normals m c
    unfold Cert.ReferenceIdeal.Arrays.normals Cert.KernelIdeal.Arrays.normals
    rw [a2, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
